-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S8x64x64 : Shape := ⟨3, ![8, 64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S8x64x64 : S_.BroadcastsInDim S8x64x64 (![] : Fin 0 → Fin S8x64x64.rank)
  reducesTo_S8x64x64_S_d0_1_2 : S8x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : IVec S2x800000 32) (main_arg2 : FVec F S800000 .f32) (main_arg3 : FVec F S8x64x64 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S8x64x64 .f32 := Host.absf main_arg3
  let main_cst_2 : FVec F S_ .f32 := constant S_ .f32 0x7F800000#32
  let main_v10 : FVec F S8x64x64 .f32 := broadcastInDim S8x64x64 ![] bcast_S_S8x64x64 main_cst_2
  let main_v11 : IVec S8x64x64 1 := cmpf .olt main_v9 main_v10
  let main_c_3 : IVec S_ 1 := constantI S_ 1 1#1
  let main_v12 : IVec S_ 1 := (fun x v => Host.reduce IntOp.andi x v reducesTo_S8x64x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S800000 : Shape := ⟨1, ![800000]⟩
abbrev S8x64x64 : Shape := ⟨3, ![8, 64, 64]⟩
abbrev S64 : Shape := ⟨1, ![64]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S1x50000x64 : Shape := ⟨3, ![1, 50000, 64]⟩
abbrev S8x50000x64 : Shape := ⟨3, ![8, 50000, 64]⟩
abbrev S1x64 : Shape := ⟨2, ![1, 64]⟩
abbrev S8x2000x64 : Shape := ⟨3, ![8, 2000, 64]⟩
abbrev S2000x64 : Shape := ⟨2, ![2000, 64]⟩
abbrev S1x2000x64 : Shape := ⟨3, ![1, 2000, 64]⟩
abbrev S1x64x64 : Shape := ⟨3, ![1, 64, 64]⟩
abbrev S64x64 : Shape := ⟨2, ![64, 64]⟩

abbrev nBuf : Space → Nat
  | .hbm => 156
  | .vmem => 6
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S8x64x64, .f32⟩
  | 4 => ⟨S64, .f32⟩
  | 5 => ⟨S1x800000, .i32⟩
  | 6 => ⟨S800000, .i32⟩
  | 7 => ⟨S1x800000, .i32⟩
  | 8 => ⟨S800000, .i32⟩
  | 9 => ⟨S800000x1, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S800000x64, .f32⟩
  | 20 => ⟨S800000x64, .f32⟩
  | 21 => ⟨S_, .f32⟩
  | 22 => ⟨S50000x64, .f32⟩
  | 23 => ⟨S800000x1, .i32⟩
  | 24 => ⟨S50000x64, .f32⟩
  | 25 => ⟨S800000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S800000x64, .f32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S_, .f32⟩
  | 42 => ⟨S50000x64, .f32⟩
  | 43 => ⟨S50000x64, .f32⟩
  | 44 => ⟨S50000x64, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S800000x64, .f32⟩
  | 56 => ⟨S800000x64, .f32⟩
  | 57 => ⟨S_, .f32⟩
  | 58 => ⟨S50000x64, .f32⟩
  | 59 => ⟨S800000x1, .i32⟩
  | 60 => ⟨S50000x64, .f32⟩
  | 61 => ⟨S_, .f32⟩
  | 62 => ⟨S50000x64, .f32⟩
  | 63 => ⟨S50000x64, .f32⟩
  | 64 => ⟨S50000x64, .f32⟩
  | 65 => ⟨S800000x1, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x64, .f32⟩
  | 75 => ⟨S800000x64, .f32⟩
  | 76 => ⟨S800000x64, .f32⟩
  | 77 => ⟨S_, .f32⟩
  | 78 => ⟨S50000x64, .f32⟩
  | 79 => ⟨S800000x1, .i32⟩
  | 80 => ⟨S50000x64, .f32⟩
  | 81 => ⟨S_, .f32⟩
  | 82 => ⟨S50000x64, .f32⟩
  | 83 => ⟨S50000x64, .f32⟩
  | 84 => ⟨S50000x64, .f32⟩
  | 85 => ⟨S800000x1, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x64, .f32⟩
  | 95 => ⟨S800000x64, .f32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S_, .f32⟩
  | 102 => ⟨S50000x64, .f32⟩
  | 103 => ⟨S50000x64, .f32⟩
  | 104 => ⟨S50000x64, .f32⟩
  | 105 => ⟨S800000x1, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x64, .f32⟩
  | 115 => ⟨S800000x64, .f32⟩
  | 116 => ⟨S800000x64, .f32⟩
  | 117 => ⟨S_, .f32⟩
  | 118 => ⟨S50000x64, .f32⟩
  | 119 => ⟨S800000x1, .i32⟩
  | 120 => ⟨S50000x64, .f32⟩
  | 121 => ⟨S_, .f32⟩
  | 122 => ⟨S50000x64, .f32⟩
  | 123 => ⟨S50000x64, .f32⟩
  | 124 => ⟨S50000x64, .f32⟩
  | 125 => ⟨S800000x1, .f32⟩
  | 126 => ⟨S_, .i32⟩
  | 127 => ⟨S800000, .i32⟩
  | _ => ⟨S50000x64, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x64, .f32⟩
  | 7 => ⟨S800000x64, .f32⟩
  | 8 => ⟨S800000x64, .f32⟩
  | 9 => ⟨S_, .f32⟩
  | 10 => ⟨S50000x64, .f32⟩
  | 11 => ⟨S800000x1, .i32⟩
  | 12 => ⟨S50000x64, .f32⟩
  | 13 => ⟨S_, .f32⟩
  | 14 => ⟨S50000x64, .f32⟩
  | 15 => ⟨S50000x64, .f32⟩
  | 16 => ⟨S50000x64, .f32⟩
  | 17 => ⟨S1x50000x64, .f32⟩
  | 18 => ⟨S1x50000x64, .f32⟩
  | 19 => ⟨S1x50000x64, .f32⟩
  | 20 => ⟨S1x50000x64, .f32⟩
  | 21 => ⟨S1x50000x64, .f32⟩
  | 22 => ⟨S1x50000x64, .f32⟩
  | 23 => ⟨S1x50000x64, .f32⟩
  | 24 => ⟨S1x50000x64, .f32⟩
  | 25 => ⟨S8x50000x64, .f32⟩
  | 26 => ⟨S1x64, .f32⟩
  | 27 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S8x2000x64, .f32⟩
  | .local _ .vmem, ⟨1, _⟩ => ⟨S8x2000x64, .f32⟩
  | .local _ .vmem, ⟨2, _⟩ => ⟨S8x64x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_9 : Ref sig .tc := ⟨.hbm, 66, rfl⟩
abbrev main_v50 : Ref sig .tc := ⟨.hbm, 67, rfl⟩
abbrev main_v51 : Ref sig .tc := ⟨.hbm, 68, rfl⟩
abbrev main_c_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_13 : Ref sig .tc := ⟨.hbm, 86, rfl⟩
abbrev main_v66 : Ref sig .tc := ⟨.hbm, 87, rfl⟩
abbrev main_v67 : Ref sig .tc := ⟨.hbm, 88, rfl⟩
abbrev main_c_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_15 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_16 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_17 : Ref sig .tc := ⟨.hbm, 106, rfl⟩
abbrev main_v82 : Ref sig .tc := ⟨.hbm, 107, rfl⟩
abbrev main_v83 : Ref sig .tc := ⟨.hbm, 108, rfl⟩
abbrev main_c_18 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_19 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_20 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_c_21 : Ref sig .tc := ⟨.hbm, 126, rfl⟩
abbrev main_v98 : Ref sig .tc := ⟨.hbm, 127, rfl⟩
abbrev main_v99 : Ref sig .tc := ⟨.hbm, 128, rfl⟩
abbrev main_c_22 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_23 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_24 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x64_S1x50000x64_1_2 : S50000x64.BroadcastsInDim S1x50000x64 (![1, 2] : Fin 2 → Fin S1x50000x64.rank)
  concatenates_S1x50000x64_S1x50000x64_S1x50000x64_S1x50000x64_S1x50000x64_S1x50000x64_S1x50000x64_S1x50000x64_S8x50000x64_d0 : Shape.Concatenates [S1x50000x64, S1x50000x64, S1x50000x64, S1x50000x64, S1x50000x64, S1x50000x64, S1x50000x64, S1x50000x64] S8x50000x64 0
  shapeCasts_S64_S1x64 : S64.ShapeCasts S1x64
  inb_S8x2000x64_S1x2000x64_0_0_0 : ∀ a, (![0, 0, 0] : Fin 3 → Nat) a + S1x2000x64.size a ≤ S8x2000x64.size a
  h_S1x2000x64 : 0 < S1x2000x64.numel
  shapeCasts_S1x2000x64_S2000x64 : S1x2000x64.ShapeCasts S2000x64
  bitsLt_bf16_f32 : FTy.bits .bf16 < FTy.bits .f32
  inb_S8x64x64_S1x64x64_0_0_0 : ∀ a, (![0, 0, 0] : Fin 3 → Nat) a + S1x64x64.size a ≤ S8x64x64.size a
  h_S1x64x64 : 0 < S1x64x64.numel
  shapeCasts_S1x64x64_S64x64 : S1x64x64.ShapeCasts S64x64
  inb_S8x2000x64_S1x2000x64_1_0_0 : ∀ a, (![1, 0, 0] : Fin 3 → Nat) a + S1x2000x64.size a ≤ S8x2000x64.size a
  inb_S8x64x64_S1x64x64_1_0_0 : ∀ a, (![1, 0, 0] : Fin 3 → Nat) a + S1x64x64.size a ≤ S8x64x64.size a
  inb_S8x2000x64_S1x2000x64_2_0_0 : ∀ a, (![2, 0, 0] : Fin 3 → Nat) a + S1x2000x64.size a ≤ S8x2000x64.size a
  inb_S8x64x64_S1x64x64_2_0_0 : ∀ a, (![2, 0, 0] : Fin 3 → Nat) a + S1x64x64.size a ≤ S8x64x64.size a
  inb_S8x2000x64_S1x2000x64_3_0_0 : ∀ a, (![3, 0, 0] : Fin 3 → Nat) a + S1x2000x64.size a ≤ S8x2000x64.size a
  inb_S8x64x64_S1x64x64_3_0_0 : ∀ a, (![3, 0, 0] : Fin 3 → Nat) a + S1x64x64.size a ≤ S8x64x64.size a
  inb_S8x2000x64_S1x2000x64_4_0_0 : ∀ a, (![4, 0, 0] : Fin 3 → Nat) a + S1x2000x64.size a ≤ S8x2000x64.size a
  inb_S8x64x64_S1x64x64_4_0_0 : ∀ a, (![4, 0, 0] : Fin 3 → Nat) a + S1x64x64.size a ≤ S8x64x64.size a
  inb_S8x2000x64_S1x2000x64_5_0_0 : ∀ a, (![5, 0, 0] : Fin 3 → Nat) a + S1x2000x64.size a ≤ S8x2000x64.size a
  inb_S8x64x64_S1x64x64_5_0_0 : ∀ a, (![5, 0, 0] : Fin 3 → Nat) a + S1x64x64.size a ≤ S8x64x64.size a
  inb_S8x2000x64_S1x2000x64_6_0_0 : ∀ a, (![6, 0, 0] : Fin 3 → Nat) a + S1x2000x64.size a ≤ S8x2000x64.size a
  inb_S8x64x64_S1x64x64_6_0_0 : ∀ a, (![6, 0, 0] : Fin 3 → Nat) a + S1x64x64.size a ≤ S8x64x64.size a
  inb_S8x2000x64_S1x2000x64_7_0_0 : ∀ a, (![7, 0, 0] : Fin 3 → Nat) a + S1x2000x64.size a ≤ S8x2000x64.size a
  inb_S8x64x64_S1x64x64_7_0_0 : ∀ a, (![7, 0, 0] : Fin 3 → Nat) a + S1x64x64.size a ≤ S8x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2000x64.size a ≤ S8x50000x64.size a
  hwx0_0 : ∀ i : grid0.Coords, EltTy.bits .f32 = 32 ∨ (Rect.block (s := S8x50000x64) S8x2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64x64.size a ≤ S8x64x64.size a
  hwx0_1 : ∀ i : grid0.Coords, EltTy.bits .f32 = 32 ∨ (Rect.block (s := S8x64x64) S8x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v121) S8x2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v122) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v123) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S8x64x64 : Shape := ⟨3, ![8, 64, 64]⟩
abbrev S64 : Shape := ⟨1, ![64]⟩
abbrev S1x800000 : Shape := ⟨2, ![1, 800000]⟩
abbrev S1x64x64 : Shape := ⟨3, ![1, 64, 64]⟩
abbrev S64x64 : Shape := ⟨2, ![64, 64]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 179
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S8x64x64, .f32⟩
  | 4 => ⟨S64, .f32⟩
  | 5 => ⟨S1x800000, .i32⟩
  | 6 => ⟨S800000, .i32⟩
  | 7 => ⟨S1x800000, .i32⟩
  | 8 => ⟨S800000, .i32⟩
  | 9 => ⟨S1x64x64, .f32⟩
  | 10 => ⟨S64x64, .f32⟩
  | 11 => ⟨S50000x64, .f32⟩
  | 12 => ⟨S800000x1, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x64, .f32⟩
  | 22 => ⟨S800000x64, .f32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S1x64x64, .f32⟩
  | 29 => ⟨S64x64, .f32⟩
  | 30 => ⟨S50000x64, .f32⟩
  | 31 => ⟨S50000x64, .f32⟩
  | 32 => ⟨S800000x1, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S800000x64, .f32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S_, .f32⟩
  | 49 => ⟨S50000x64, .f32⟩
  | 50 => ⟨S50000x64, .f32⟩
  | 51 => ⟨S50000x64, .f32⟩
  | 52 => ⟨S1x64x64, .f32⟩
  | 53 => ⟨S64x64, .f32⟩
  | 54 => ⟨S50000x64, .f32⟩
  | 55 => ⟨S50000x64, .f32⟩
  | 56 => ⟨S800000x1, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S800000x64, .f32⟩
  | 67 => ⟨S800000x64, .f32⟩
  | 68 => ⟨S_, .f32⟩
  | 69 => ⟨S50000x64, .f32⟩
  | 70 => ⟨S800000x1, .i32⟩
  | 71 => ⟨S50000x64, .f32⟩
  | 72 => ⟨S_, .f32⟩
  | 73 => ⟨S50000x64, .f32⟩
  | 74 => ⟨S50000x64, .f32⟩
  | 75 => ⟨S50000x64, .f32⟩
  | 76 => ⟨S1x64x64, .f32⟩
  | 77 => ⟨S64x64, .f32⟩
  | 78 => ⟨S50000x64, .f32⟩
  | 79 => ⟨S50000x64, .f32⟩
  | 80 => ⟨S800000x1, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x64, .f32⟩
  | 90 => ⟨S800000x64, .f32⟩
  | 91 => ⟨S800000x64, .f32⟩
  | 92 => ⟨S_, .f32⟩
  | 93 => ⟨S50000x64, .f32⟩
  | 94 => ⟨S800000x1, .i32⟩
  | 95 => ⟨S50000x64, .f32⟩
  | 96 => ⟨S_, .f32⟩
  | 97 => ⟨S50000x64, .f32⟩
  | 98 => ⟨S50000x64, .f32⟩
  | 99 => ⟨S50000x64, .f32⟩
  | 100 => ⟨S1x64x64, .f32⟩
  | 101 => ⟨S64x64, .f32⟩
  | 102 => ⟨S50000x64, .f32⟩
  | 103 => ⟨S50000x64, .f32⟩
  | 104 => ⟨S800000x1, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x64, .f32⟩
  | 114 => ⟨S800000x64, .f32⟩
  | 115 => ⟨S800000x64, .f32⟩
  | 116 => ⟨S_, .f32⟩
  | 117 => ⟨S50000x64, .f32⟩
  | 118 => ⟨S800000x1, .i32⟩
  | 119 => ⟨S50000x64, .f32⟩
  | 120 => ⟨S_, .f32⟩
  | 121 => ⟨S50000x64, .f32⟩
  | 122 => ⟨S50000x64, .f32⟩
  | 123 => ⟨S50000x64, .f32⟩
  | 124 => ⟨S1x64x64, .f32⟩
  | 125 => ⟨S64x64, .f32⟩
  | 126 => ⟨S50000x64, .f32⟩
  | 127 => ⟨S50000x64, .f32⟩
  | _ => ⟨S50000x64, .f32⟩

abbrev hbmTy0_1 (i : Nat) : BufTy := match i % 128 with
  | 0 => ⟨S800000x1, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x64, .f32⟩
  | 10 => ⟨S800000x64, .f32⟩
  | 11 => ⟨S800000x64, .f32⟩
  | 12 => ⟨S_, .f32⟩
  | 13 => ⟨S50000x64, .f32⟩
  | 14 => ⟨S800000x1, .i32⟩
  | 15 => ⟨S50000x64, .f32⟩
  | 16 => ⟨S_, .f32⟩
  | 17 => ⟨S50000x64, .f32⟩
  | 18 => ⟨S50000x64, .f32⟩
  | 19 => ⟨S50000x64, .f32⟩
  | 20 => ⟨S1x64x64, .f32⟩
  | 21 => ⟨S64x64, .f32⟩
  | 22 => ⟨S50000x64, .f32⟩
  | 23 => ⟨S50000x64, .f32⟩
  | 24 => ⟨S800000x1, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x64, .f32⟩
  | 34 => ⟨S800000x64, .f32⟩
  | 35 => ⟨S800000x64, .f32⟩
  | 36 => ⟨S_, .f32⟩
  | 37 => ⟨S50000x64, .f32⟩
  | 38 => ⟨S800000x1, .i32⟩
  | 39 => ⟨S50000x64, .f32⟩
  | 40 => ⟨S_, .f32⟩
  | 41 => ⟨S50000x64, .f32⟩
  | 42 => ⟨S50000x64, .f32⟩
  | 43 => ⟨S50000x64, .f32⟩
  | 44 => ⟨S1x64x64, .f32⟩
  | 45 => ⟨S64x64, .f32⟩
  | 46 => ⟨S50000x64, .f32⟩
  | 47 => ⟨S50000x64, .f32⟩
  | 48 => ⟨S1x64, .f32⟩
  | 49 => ⟨S50000x64, .f32⟩
  | 50 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_5 : Ref sig .tc := ⟨.hbm, 57, rfl⟩
abbrev main_v45 : Ref sig .tc := ⟨.hbm, 58, rfl⟩
abbrev main_v46 : Ref sig .tc := ⟨.hbm, 59, rfl⟩
abbrev main_c_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_c_9 : Ref sig .tc := ⟨.hbm, 81, rfl⟩
abbrev main_v65 : Ref sig .tc := ⟨.hbm, 82, rfl⟩
abbrev main_v66 : Ref sig .tc := ⟨.hbm, 83, rfl⟩
abbrev main_c_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_12 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_c_13 : Ref sig .tc := ⟨.hbm, 105, rfl⟩
abbrev main_v85 : Ref sig .tc := ⟨.hbm, 106, rfl⟩
abbrev main_v86 : Ref sig .tc := ⟨.hbm, 107, rfl⟩
abbrev main_c_14 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_15 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_16 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_c_17 : Ref sig .tc := ⟨.hbm, 129, rfl⟩
abbrev main_v105 : Ref sig .tc := ⟨.hbm, 130, rfl⟩
abbrev main_v106 : Ref sig .tc := ⟨.hbm, 131, rfl⟩
abbrev main_c_18 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_cst_19 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_20 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_c_21 : Ref sig .tc := ⟨.hbm, 153, rfl⟩
abbrev main_v125 : Ref sig .tc := ⟨.hbm, 154, rfl⟩
abbrev main_v126 : Ref sig .tc := ⟨.hbm, 155, rfl⟩
abbrev main_c_22 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_cst_23 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_24 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S8x64x64_S1x64x64_0_0_0 : S8x64x64.Slices ![0, 0, 0] S1x64x64
  shapeCasts_S1x64x64_S64x64 : S1x64x64.ShapeCasts S64x64
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelFrame.lean ====
/-
  The frame of `Kernel`: @main is a stretch of host operations (the sparse propagation steps and the stacking of the
  eight Chebyshev terms) followed by one region of 25 grid points.  At a point the body reads its three input blocks
  (the eight stacked row tiles, the eight weight matrices, the bias row) and overwrites the output tile with one covering
  store; so each output buffer is a function of the input blocks alone, every input buffer is left as found, and the
  launch theorem of the pipeline library gives the run, the unchanged arguments, and the output array as the write-backs.
  Stated at any float instance.
-/
import proofs.«115591_j56229711839494_2_alg».proof.Proof.Gen.Kernel.Launch
import proofs.«115591_j56229711839494_2_alg».proof.Proof.Gen.Kernel.Skeleton
import proofs.«115591_j56229711839494_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Combine

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: the launch contents after the host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Every host operation writes a buffer of its own, never an argument: the region finds argument `b` as launched. -/
theorem V_arg (c : Dev nD) (b : Ref sig .tc) (hb : b = main_arg0 ∨ b = main_arg1 ∨ b = main_arg2 ∨ b = main_arg3 ∨ b = main_arg4) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    rcases hb with rfl | rfl | rfl | rfl | rfl
    all_goals
      repeat' apply And.intro
      all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (an unfetched window's
    index has not moved), for any proof data whose array is the region-entry one and whose body leaves the block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: term `k`'s row tile, weight `k`, the bias row, the output tile -/

abbrev rT0 : Rect S8x2000x64 := Rect.unit (s := S8x2000x64) ![0, 0, 0] S1x2000x64.size inb_S8x2000x64_S1x2000x64_0_0_0
abbrev rT1 : Rect S8x2000x64 := Rect.unit (s := S8x2000x64) ![1, 0, 0] S1x2000x64.size inb_S8x2000x64_S1x2000x64_1_0_0
abbrev rT2 : Rect S8x2000x64 := Rect.unit (s := S8x2000x64) ![2, 0, 0] S1x2000x64.size inb_S8x2000x64_S1x2000x64_2_0_0
abbrev rT3 : Rect S8x2000x64 := Rect.unit (s := S8x2000x64) ![3, 0, 0] S1x2000x64.size inb_S8x2000x64_S1x2000x64_3_0_0
abbrev rT4 : Rect S8x2000x64 := Rect.unit (s := S8x2000x64) ![4, 0, 0] S1x2000x64.size inb_S8x2000x64_S1x2000x64_4_0_0
abbrev rT5 : Rect S8x2000x64 := Rect.unit (s := S8x2000x64) ![5, 0, 0] S1x2000x64.size inb_S8x2000x64_S1x2000x64_5_0_0
abbrev rT6 : Rect S8x2000x64 := Rect.unit (s := S8x2000x64) ![6, 0, 0] S1x2000x64.size inb_S8x2000x64_S1x2000x64_6_0_0
abbrev rT7 : Rect S8x2000x64 := Rect.unit (s := S8x2000x64) ![7, 0, 0] S1x2000x64.size inb_S8x2000x64_S1x2000x64_7_0_0
abbrev rW0 : Rect S8x64x64 := Rect.unit (s := S8x64x64) ![0, 0, 0] S1x64x64.size inb_S8x64x64_S1x64x64_0_0_0
abbrev rW1 : Rect S8x64x64 := Rect.unit (s := S8x64x64) ![1, 0, 0] S1x64x64.size inb_S8x64x64_S1x64x64_1_0_0
abbrev rW2 : Rect S8x64x64 := Rect.unit (s := S8x64x64) ![2, 0, 0] S1x64x64.size inb_S8x64x64_S1x64x64_2_0_0
abbrev rW3 : Rect S8x64x64 := Rect.unit (s := S8x64x64) ![3, 0, 0] S1x64x64.size inb_S8x64x64_S1x64x64_3_0_0
abbrev rW4 : Rect S8x64x64 := Rect.unit (s := S8x64x64) ![4, 0, 0] S1x64x64.size inb_S8x64x64_S1x64x64_4_0_0
abbrev rW5 : Rect S8x64x64 := Rect.unit (s := S8x64x64) ![5, 0, 0] S1x64x64.size inb_S8x64x64_S1x64x64_5_0_0
abbrev rW6 : Rect S8x64x64 := Rect.unit (s := S8x64x64) ![6, 0, 0] S1x64x64.size inb_S8x64x64_S1x64x64_6_0_0
abbrev rW7 : Rect S8x64x64 := Rect.unit (s := S8x64x64) ![7, 0, 0] S1x64x64.size inb_S8x64x64_S1x64x64_7_0_0
abbrev rB : Rect S1x64 := Rect.unit (s := S1x64) ![0, 0] S1x64.size inb_S1x64_S1x64_0_0
abbrev rO : Rect S2000x64 := Rect.unit (s := S2000x64) ![0, 0] S2000x64.size inb_S2000x64_S2000x64_0_0

/-! ## What the body leaves in the output window's buffer -/

/-- The running sum after all eight terms plus the bias, as a function of the three input blocks. -/
def tile (x0 : Vec F S8x2000x64 .f32) (x1 : Vec F S8x64x64 .f32) (x2 : Vec F S1x64 .f32) : FVec F S2000x64 .f32 :=
  k0_pay1
    (k0_pay5 (k0_pay2 (View.ld x0 rT0) (View.ld x1 rW0) (View.ld x0 rT1) (View.ld x1 rW1) (View.ld x0 rT2) (View.ld x1 rW2))
      (k0_pay3 (View.ld x0 rT3)) (k0_pay4 (View.ld x1 rW3))
      (View.ld x0 rT4) (View.ld x1 rW4) (View.ld x0 rT5) (View.ld x1 rW5) (View.ld x0 rT6) (View.ld x1 rW6))
    (k0_pay6 (View.ld x0 rT7)) (k0_pay7 (View.ld x1 rW7)) (View.ld x2 rB)

/-- The output buffer after the body: its one store, over the whole buffer. -/
def out0_3 (x0 : Vec F S8x2000x64 .f32) (x1 : Vec F S8x64x64 .f32) (x2 : Vec F S1x64 .f32) : Vec F S2000x64 .f32 :=
  View.canon [⟨rO, tile x0 x1 x2⟩]

/-- The store covers the buffer. -/
theorem cover0_3 (p0 : Vec F S2000x64 .f32) (y : S2000x64.Idx) :
    ∃ pc ∈ ([⟨rO, p0⟩] : List (View.Piece (Elt F) S2000x64 .f32)), y ∈ pc.1.set :=
  View.cover_of_tiled [⟨rO, p0⟩] S2000x64.size (by rfl) y

/-! ## The body's triple -/

set_option maxHeartbeats 4000000 in
/-- The body on whole staging buffers, the inputs at `x0 x1 x2` and the output at anything, returns the inputs as they
    were and the output at `out0_3 x0 x1 x2`. -/
theorem sound_kernel (c : Dev nD) (E : Set ℕ) (i : grid0.Coords)
    (arg1 : Memref sig .tc .vmem S8x2000x64 .f32) (harg1 : arg1.IsWhole) (arg2 : Memref sig .tc .vmem S8x64x64 .f32) (harg2 : arg2.IsWhole)
    (arg3 : Memref sig .tc .vmem S1x64 .f32) (harg3 : arg3.IsWhole) (arg4 : Memref sig .tc .vmem S2000x64 .f32) (harg4 : arg4.IsWhole)
    (x0 : Vec F S8x2000x64 .f32) (x1 : Vec F S8x64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__cheb_combine_kernel i arg1 harg1 arg2 harg2 arg3 harg3 arg4 harg4) K := by
  simp only [cc0__cheb_combine_kernel_eq_skeleton]; unfold cc0__cheb_combine_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- After the body at point `t` each input buffer holds its block and the output buffer `out0_3` of the input blocks;
    the invariant is the scoped rest, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; in every final state each array of the pipeline holds what the
    write-backs of the proof data leave and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with its post read at the result array and the five arguments: the result is the array the write-backs
    leave, the arguments are as launched (the weights as a staged input, the others as buffers no window stages). -/
theorem run_result : θ_run defs (onTc (τ := τ) (main (F := F))) ⟨m, fun _ => 0, ρ⟩ (fun r => ∀ c : Dev nD,
      r.2.mem ((c.tc : Thread nD τ).loc main_v123) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 3,
      ((h c).2 main_arg0 (Pipeline.mem_restRefs_of main_arg0 (by decide) (by decide))).trans (V_arg m c main_arg0 (by simp)),
      ((h c).2 main_arg1 (Pipeline.mem_restRefs_of main_arg1 (by decide) (by decide))).trans (V_arg m c main_arg1 (by simp)),
      ((h c).2 main_arg2 (Pipeline.mem_restRefs_of main_arg2 (by decide) (by decide))).trans (V_arg m c main_arg2 (by simp)),
      ((h c).1 1).trans ((((dats m) 0 c).arrAt_in 1 rfl _).trans ((A_eq m c 1).trans (V_arg m c main_arg3 (by simp)))),
      ((h c).2 main_arg4 (Pipeline.mem_restRefs_of main_arg4 (by decide) (by decide))).trans (V_arg m c main_arg4 (by simp))⟩)
    (run_main m ρ)

/-- The frame: @main runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.Kernel.Combine

end
-- ==== Proof.KernelIdealFrame.lean ====
/-
  The frame of `KernelIdeal`: @main is a stretch of host operations (the sparse propagation steps and the stacking of the
  eight Chebyshev terms) followed by one region of 25 grid points.  At a point the body reads its three input blocks
  (the eight stacked row tiles, the eight weight matrices, the bias row) and overwrites the output tile with one covering
  store; so each output buffer is a function of the input blocks alone, every input buffer is left as found, and the
  launch theorem of the pipeline library gives the run, the unchanged arguments, and the output array as the write-backs.
  Stated at any float instance.
-/
import proofs.«115591_j56229711839494_2_alg».proof.Proof.Gen.KernelIdeal.Launch
import proofs.«115591_j56229711839494_2_alg».proof.Proof.Gen.KernelIdeal.Skeleton
import proofs.«115591_j56229711839494_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers of core `c` when the region is entered: the launch contents after the host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- Every host operation writes a buffer of its own, never an argument: the region finds argument `b` as launched. -/
theorem V_arg (c : Dev nD) (b : Ref sig .tc) (hb : b = main_arg0 ∨ b = main_arg1 ∨ b = main_arg2 ∨ b = main_arg3 ∨ b = main_arg4) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    rcases hb with rfl | rfl | rfl | rfl | rfl
    all_goals
      repeat' apply And.intro
      all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (an unfetched window's
    index has not moved), for any proof data whose array is the region-entry one and whose body leaves the block. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: term `k`'s row tile, weight `k`, the bias row, the output tile -/

abbrev rT0 : Rect S8x2000x64 := Rect.unit (s := S8x2000x64) ![0, 0, 0] S1x2000x64.size inb_S8x2000x64_S1x2000x64_0_0_0
abbrev rT1 : Rect S8x2000x64 := Rect.unit (s := S8x2000x64) ![1, 0, 0] S1x2000x64.size inb_S8x2000x64_S1x2000x64_1_0_0
abbrev rT2 : Rect S8x2000x64 := Rect.unit (s := S8x2000x64) ![2, 0, 0] S1x2000x64.size inb_S8x2000x64_S1x2000x64_2_0_0
abbrev rT3 : Rect S8x2000x64 := Rect.unit (s := S8x2000x64) ![3, 0, 0] S1x2000x64.size inb_S8x2000x64_S1x2000x64_3_0_0
abbrev rT4 : Rect S8x2000x64 := Rect.unit (s := S8x2000x64) ![4, 0, 0] S1x2000x64.size inb_S8x2000x64_S1x2000x64_4_0_0
abbrev rT5 : Rect S8x2000x64 := Rect.unit (s := S8x2000x64) ![5, 0, 0] S1x2000x64.size inb_S8x2000x64_S1x2000x64_5_0_0
abbrev rT6 : Rect S8x2000x64 := Rect.unit (s := S8x2000x64) ![6, 0, 0] S1x2000x64.size inb_S8x2000x64_S1x2000x64_6_0_0
abbrev rT7 : Rect S8x2000x64 := Rect.unit (s := S8x2000x64) ![7, 0, 0] S1x2000x64.size inb_S8x2000x64_S1x2000x64_7_0_0
abbrev rW0 : Rect S8x64x64 := Rect.unit (s := S8x64x64) ![0, 0, 0] S1x64x64.size inb_S8x64x64_S1x64x64_0_0_0
abbrev rW1 : Rect S8x64x64 := Rect.unit (s := S8x64x64) ![1, 0, 0] S1x64x64.size inb_S8x64x64_S1x64x64_1_0_0
abbrev rW2 : Rect S8x64x64 := Rect.unit (s := S8x64x64) ![2, 0, 0] S1x64x64.size inb_S8x64x64_S1x64x64_2_0_0
abbrev rW3 : Rect S8x64x64 := Rect.unit (s := S8x64x64) ![3, 0, 0] S1x64x64.size inb_S8x64x64_S1x64x64_3_0_0
abbrev rW4 : Rect S8x64x64 := Rect.unit (s := S8x64x64) ![4, 0, 0] S1x64x64.size inb_S8x64x64_S1x64x64_4_0_0
abbrev rW5 : Rect S8x64x64 := Rect.unit (s := S8x64x64) ![5, 0, 0] S1x64x64.size inb_S8x64x64_S1x64x64_5_0_0
abbrev rW6 : Rect S8x64x64 := Rect.unit (s := S8x64x64) ![6, 0, 0] S1x64x64.size inb_S8x64x64_S1x64x64_6_0_0
abbrev rW7 : Rect S8x64x64 := Rect.unit (s := S8x64x64) ![7, 0, 0] S1x64x64.size inb_S8x64x64_S1x64x64_7_0_0
abbrev rB : Rect S1x64 := Rect.unit (s := S1x64) ![0, 0] S1x64.size inb_S1x64_S1x64_0_0
abbrev rO : Rect S2000x64 := Rect.unit (s := S2000x64) ![0, 0] S2000x64.size inb_S2000x64_S2000x64_0_0

/-! ## What the body leaves in the output window's buffer -/

/-- The running sum after all eight terms plus the bias, as a function of the three input blocks. -/
def tile (x0 : Vec F S8x2000x64 .f32) (x1 : Vec F S8x64x64 .f32) (x2 : Vec F S1x64 .f32) : FVec F S2000x64 .f32 :=
  k0_pay1
    (k0_pay5 (k0_pay2 (View.ld x0 rT0) (View.ld x1 rW0) (View.ld x0 rT1) (View.ld x1 rW1) (View.ld x0 rT2) (View.ld x1 rW2))
      (k0_pay3 (View.ld x0 rT3)) (k0_pay4 (View.ld x1 rW3))
      (View.ld x0 rT4) (View.ld x1 rW4) (View.ld x0 rT5) (View.ld x1 rW5) (View.ld x0 rT6) (View.ld x1 rW6))
    (k0_pay6 (View.ld x0 rT7)) (k0_pay7 (View.ld x1 rW7)) (View.ld x2 rB)

/-- The output buffer after the body: its one store, over the whole buffer. -/
def out0_3 (x0 : Vec F S8x2000x64 .f32) (x1 : Vec F S8x64x64 .f32) (x2 : Vec F S1x64 .f32) : Vec F S2000x64 .f32 :=
  View.canon [⟨rO, tile x0 x1 x2⟩]

/-- The store covers the buffer. -/
theorem cover0_3 (p0 : Vec F S2000x64 .f32) (y : S2000x64.Idx) :
    ∃ pc ∈ ([⟨rO, p0⟩] : List (View.Piece (Elt F) S2000x64 .f32)), y ∈ pc.1.set :=
  View.cover_of_tiled [⟨rO, p0⟩] S2000x64.size (by rfl) y

/-! ## The body's triple -/

set_option maxHeartbeats 4000000 in
/-- The body on whole staging buffers, the inputs at `x0 x1 x2` and the output at anything, returns the inputs as they
    were and the output at `out0_3 x0 x1 x2`. -/
theorem sound_kernel (c : Dev nD) (E : Set ℕ) (i : grid0.Coords)
    (arg1 : Memref sig .tc .vmem S8x2000x64 .f32) (harg1 : arg1.IsWhole) (arg2 : Memref sig .tc .vmem S8x64x64 .f32) (harg2 : arg2.IsWhole)
    (arg3 : Memref sig .tc .vmem S1x64 .f32) (harg3 : arg3.IsWhole) (arg4 : Memref sig .tc .vmem S2000x64 .f32) (harg4 : arg4.IsWhole)
    (x0 : Vec F S8x2000x64 .f32) (x1 : Vec F S8x64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__cheb_combine_kernel i arg1 harg1 arg2 harg2 arg3 harg3 arg4 harg4) K := by
  simp only [cc0__cheb_combine_kernel_eq_skeleton]; unfold cc0__cheb_combine_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

/-! ## The pipeline's proof data -/

/-- After the body at point `t` each input buffer holds its block and the output buffer `out0_3` of the input blocks;
    the invariant is the scoped rest, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; in every final state each array of the pipeline holds what the
    write-backs of the proof data leave and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with its post read at the result array and the five arguments: the result is the array the write-backs
    leave, the arguments are as launched (the weights as a staged input, the others as buffers no window stages). -/
theorem run_result : θ_run defs (onTc (τ := τ) (main (F := F))) ⟨m, fun _ => 0, ρ⟩ (fun r => ∀ c : Dev nD,
      r.2.mem ((c.tc : Thread nD τ).loc main_v123) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1 3,
      ((h c).2 main_arg0 (Pipeline.mem_restRefs_of main_arg0 (by decide) (by decide))).trans (V_arg m c main_arg0 (by simp)),
      ((h c).2 main_arg1 (Pipeline.mem_restRefs_of main_arg1 (by decide) (by decide))).trans (V_arg m c main_arg1 (by simp)),
      ((h c).2 main_arg2 (Pipeline.mem_restRefs_of main_arg2 (by decide) (by decide))).trans (V_arg m c main_arg2 (by simp)),
      ((h c).1 1).trans ((((dats m) 0 c).arrAt_in 1 rfl _).trans ((A_eq m c 1).trans (V_arg m c main_arg3 (by simp)))),
      ((h c).2 main_arg4 (Pipeline.mem_restRefs_of main_arg4 (by decide) (by decide))).trans (V_arg m c main_arg4 (by simp))⟩)
    (run_main m ρ)

/-- The frame: @main runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Combine

end
-- ==== Proof.CombineSpec.lean ====
/-
  The dense combine, index by index.  For a stack `T` of eight row-major matrices with 64 columns and a stack `W` of
  eight 64×64 weight matrices, term `k` of the combine at row `r` and column `e` is the inner product of row `r` of
  `T k` with column `e` of `W k` (`dotAt`).  Both programs compute these inner products at the ideal values: the
  kernel as a matrix-unit product of one slab of its row tile with one slab of the weights into a zero accumulator, the
  reference as a host product of a whole matrix with a slice of the weights.  Neither reading uses anything of real
  arithmetic beyond `0 + x = x`, so both hold at the infinities too.
-/
import Idealize.ShloMosaic.Lib.StackMember
import Idealize.ShloMosaic.Lib.Pipeline.Value
import Idealize.ShloMosaic.Lib.Pipeline.FrameBody
import Idealize.ShloMosaic.PureOps.Ideal.Laws

noncomputable section

namespace Cert.Combine

open Idealize.ShloMosaic Idealize.ShloMosaic.ValueIdx Idealize.ShloMosaic.StackMember
open scoped BigOperators

/-- Term `k` of the combine at (r, e): row `r` of member `k` of `T` against column `e` of member `k` of `W`. -/
def dotAt {G n : Nat} (T : (⟨3, ![G, n, 64]⟩ : Shape).Idx → EReal) (W : (⟨3, ![G, 64, 64]⟩ : Shape).Idx → EReal)
    (k : Nat) (hk : k < G) (r : Fin n) (e : Fin 64) : EReal :=
  ∑ c : Fin 64, T (ix3 ⟨k, hk⟩ r c) * W (ix3 ⟨k, hk⟩ c e)

/-- The eight terms added in order, then the bias of the column. -/
def combineAt {n : Nat} (T : (⟨3, ![8, n, 64]⟩ : Shape).Idx → EReal) (W : (⟨3, ![8, 64, 64]⟩ : Shape).Idx → EReal)
    (b : Fin 64 → EReal) (r : Fin n) (e : Fin 64) : EReal :=
  (((((((dotAt T W 0 (by decide) r e + dotAt T W 1 (by decide) r e) + dotAt T W 2 (by decide) r e) + dotAt T W 3 (by decide) r e)
    + dotAt T W 4 (by decide) r e) + dotAt T W 5 (by decide) r e) + dotAt T W 6 (by decide) r e) + dotAt T W 7 (by decide) r e) + b e

/-- The same inner product with the matrix given by itself rather than as a member of a stack. -/
def termOf {n : Nat} (A : (⟨2, ![n, 64]⟩ : Shape).Idx → EReal) (W : (⟨3, ![8, 64, 64]⟩ : Shape).Idx → EReal)
    (k : Nat) (hk : k < 8) (r : Fin n) (e : Fin 64) : EReal :=
  ∑ c : Fin 64, A (ix2 r c) * W (ix3 ⟨k, hk⟩ c e)

/-- A stack's term is its member's. -/
theorem dotAt_of_member {n : Nat} (T : (⟨3, ![8, n, 64]⟩ : Shape).Idx → EReal) (A : (⟨2, ![n, 64]⟩ : Shape).Idx → EReal)
    (W : (⟨3, ![8, 64, 64]⟩ : Shape).Idx → EReal) (k : Nat) (hk : k < 8) (h : ∀ r c, T (ix3 ⟨k, hk⟩ r c) = A (ix2 r c))
    (r : Fin n) (e : Fin 64) : dotAt T W k hk r e = termOf A W k hk r e := by
  unfold dotAt termOf
  exact Finset.sum_congr rfl fun c _ => by rw [h r c]

/-- One slab of a stack, loaded through the rectangle that selects it, read at an index of the slab. -/
theorem ld_slab {Val : EltTy → Type} {e' : EltTy} {G n p : Nat} (X : (⟨3, ![G, n, p]⟩ : Shape).Idx → Val e') (k : Nat) (hk : k < G)
    (inb : ∀ a, (![k, 0, 0] : Fin 3 → Nat) a + (⟨3, ![1, n, p]⟩ : Shape).size a ≤ (⟨3, ![G, n, p]⟩ : Shape).size a)
    (r : Fin n) (c : Fin p) :
    View.ld X (Rect.unit (s := ⟨3, ![G, n, p]⟩) ![k, 0, 0] (⟨3, ![1, n, p]⟩ : Shape).size inb)
      (ix3 (0 : Fin 1) r c) = X (ix3 ⟨k, hk⟩ r c) := by
  refine congrArg X (funext fun a => Fin.ext ?_)
  match a with
  | ⟨0, _⟩ => show k + 1 * 0 = k; omega
  | ⟨1, _⟩ => show 0 + 1 * r.val = r.val; omega
  | ⟨2, _⟩ => show 0 + 1 * c.val = c.val; omega

/-- The kernel's term: one slab of the row tile times one slab of the weights on the matrix unit, both rounded to
    bf16 first (no change at the ideal values), into a zero accumulator, read at (r, e), is the inner product. -/
theorem slab_product_apply {n : Nat} (d : DotDims ⟨2, ![n, 64]⟩ ⟨2, ![64, 64]⟩ ⟨2, ![n, 64]⟩) (hd : d = DotDims.plain n 64 64)
    (A : FVec Ideal ⟨3, ![1, n, 64]⟩ .f32) (B : FVec Ideal ⟨3, ![1, 64, 64]⟩ .f32)
    (hA : (⟨3, ![1, n, 64]⟩ : Shape).ShapeCasts ⟨2, ![n, 64]⟩) (hB : (⟨3, ![1, 64, 64]⟩ : Shape).ShapeCasts ⟨2, ![64, 64]⟩)
    (hbf : FTy.bits .bf16 < FTy.bits .f32) (r : Fin n) (e : Fin 64) :
    matmul d none (truncf .bf16 (shapeCast ⟨2, ![n, 64]⟩ A hA) hbf) (truncf .bf16 (shapeCast ⟨2, ![64, 64]⟩ B hB) hbf)
        (constant ⟨2, ![n, 64]⟩ .f32 0x00000000#32) (ix2 r e)
      = ∑ c : Fin 64, A (ix3 (0 : Fin 1) r c) * B (ix3 (0 : Fin 1) c e) := by
  subst hd
  rw [matmul_zero_eq_dotGeneral, dotGeneral_plain_apply]
  refine Finset.sum_congr rfl fun c _ => ?_
  have eA : shapeCast ⟨2, ![n, 64]⟩ A hA (ix2 r c) = A (ix3 (0 : Fin 1) r c) :=
    shapeCast_apply A hA (ix2 r c) (ix3 (0 : Fin 1) r c) (by
      rw [Shape.rowMajor_val_three, Shape.rowMajor_val_two]; show (0 * n + r.val) * 64 + c.val = r.val * 64 + c.val; omega)
  have eB : shapeCast ⟨2, ![64, 64]⟩ B hB (ix2 c e) = B (ix3 (0 : Fin 1) c e) :=
    shapeCast_apply B hB (ix2 c e) (ix3 (0 : Fin 1) c e) (by
      rw [Shape.rowMajor_val_three, Shape.rowMajor_val_two]; show (0 * 64 + c.val) * 64 + e.val = c.val * 64 + e.val; omega)
  show shapeCast ⟨2, ![n, 64]⟩ A hA (ix2 r c) * shapeCast ⟨2, ![64, 64]⟩ B hB (ix2 c e) = _
  rw [eA, eB]

/-- The kernel's bias: the one-row block, cast to itself and broadcast down the rows, read at (r, e), is its entry e. -/
theorem bias_rows_apply {n : Nat} (x : FVec Ideal ⟨2, ![1, 64]⟩ .f32) (h1 : (⟨2, ![1, 64]⟩ : Shape).ShapeCasts ⟨2, ![1, 64]⟩)
    (hb : (⟨2, ![1, 64]⟩ : Shape).Broadcasts ⟨2, ![n, 64]⟩) (r : Fin n) (e : Fin 64) :
    broadcastTo ⟨2, ![n, 64]⟩ (shapeCast ⟨2, ![1, 64]⟩ x h1) hb (ix2 r e) = x (ix2 (0 : Fin 1) e) := by
  rw [shapeCast_self]
  refine broadcastTo_apply x hb (ix2 r e) (ix2 (0 : Fin 1) e) ?_
  intro a
  match a with
  | ⟨0, _⟩ => rfl
  | ⟨1, _⟩ => rfl

/-- The reference's term: a whole matrix times one slice of the weights on the host, read at (r, e), is the inner product. -/
theorem host_product_apply {n : Nat} (d : DotDims ⟨2, ![n, 64]⟩ ⟨2, ![64, 64]⟩ ⟨2, ![n, 64]⟩) (hd : d = DotDims.plain n 64 64)
    (A : FVec Ideal ⟨2, ![n, 64]⟩ .f32) (W : FVec Ideal ⟨3, ![8, 64, 64]⟩ .f32) (k : Nat) (hk : k < 8)
    (hs : (⟨3, ![8, 64, 64]⟩ : Shape).Slices ![k, 0, 0] ⟨3, ![1, 64, 64]⟩)
    (hB : (⟨3, ![1, 64, 64]⟩ : Shape).ShapeCasts ⟨2, ![64, 64]⟩) (r : Fin n) (e : Fin 64) :
    Host.dotGeneral d none A (shapeCast ⟨2, ![64, 64]⟩ (extractStridedSlice ⟨3, ![1, 64, 64]⟩ ![k, 0, 0] W hs) hB) (ix2 r e)
      = ∑ c : Fin 64, A (ix2 r c) * W (ix3 ⟨k, hk⟩ c e) := by
  subst hd
  rw [dotGeneral_plain_apply]
  refine Finset.sum_congr rfl fun c _ => ?_
  have eB : shapeCast ⟨2, ![64, 64]⟩ (extractStridedSlice ⟨3, ![1, 64, 64]⟩ ![k, 0, 0] W hs) hB (ix2 c e) = W (ix3 ⟨k, hk⟩ c e) := by
    rw [shapeCast_apply _ hB (ix2 c e) (ix3 (0 : Fin 1) c e) (by
      rw [Shape.rowMajor_val_three, Shape.rowMajor_val_two]; show (0 * 64 + c.val) * 64 + e.val = c.val * 64 + e.val; omega)]
    refine extractStridedSlice_apply ![k, 0, 0] W hs (ix3 (0 : Fin 1) c e) (ix3 ⟨k, hk⟩ c e) ?_
    intro a
    match a with
    | ⟨0, _⟩ => show k = k + 0; omega
    | ⟨1, _⟩ => show c.val = 0 + c.val; omega
    | ⟨2, _⟩ => show e.val = 0 + e.val; omega
  rw [eB]

/-- A matrix made a one-member stack (a broadcast along a new leading axis of extent 1), read at (0, r, c). -/
theorem asMember_apply {α : Type} {n : Nat} (hb : (⟨2, ![n, 64]⟩ : Shape).BroadcastsInDim ⟨3, ![1, n, 64]⟩ ![1, 2])
    (A : (⟨2, ![n, 64]⟩ : Shape).Idx → α) (r : Fin n) (c : Fin 64) :
    broadcastInDim ⟨3, ![1, n, 64]⟩ ![1, 2] hb A (ix3 (0 : Fin 1) r c) = A (ix2 r c) := by
  refine broadcastInDim_apply ![1, 2] hb A (ix3 (0 : Fin 1) r c) (ix2 r c) ?_
  intro a
  match a with
  | ⟨0, _⟩ =>
    show r.val = if n = 1 then 0 else r.val
    split
    · have := r.isLt; omega
    · rfl
  | ⟨1, _⟩ => rfl

/-- One-member stacks put one above the other, read at (k, r, c): if piece `k` of the list is the matrix `A` made a
    one-member stack, and the `k` pieces before it have one member each, the entry is `A` at (r, c). -/
theorem stack_piece {α : Type} {n : Nat} (hb : (⟨2, ![n, 64]⟩ : Shape).BroadcastsInDim ⟨3, ![1, n, 64]⟩ ![1, 2])
    (xs : List ((s : Shape) × (s.Idx → α))) (h : Shape.Concatenates (xs.map (·.1)) ⟨3, ![8, n, 64]⟩ 0)
    (k : Nat) (hk : k < 8) (hk' : k < xs.length) (A : (⟨2, ![n, 64]⟩ : Shape).Idx → α)
    (hx : xs[k] = ⟨⟨3, ![1, n, 64]⟩, broadcastInDim ⟨3, ![1, n, 64]⟩ ![1, 2] hb A⟩)
    (hpre : (((xs.take k).map (·.1)).map fun s => if h : s.rank = 3 then s.size ((0 : Fin 3).cast h.symm) else 0).sum = k)
    (r : Fin n) (c : Fin 64) :
    concatenate ⟨3, ![8, n, 64]⟩ 0 xs h (ix3 ⟨k, hk⟩ r c) = A (ix2 r c) := by
  rw [concatenate_apply_piece (0 : Fin 3) xs h (ix3 ⟨k, hk⟩ r c) k hk' ⟨3, ![1, n, 64]⟩ _ hx rfl k hpre (ix3 (0 : Fin 1) r c)
    (by
      intro b hb'
      match b with
      | ⟨0, _⟩ => exact absurd rfl hb'
      | ⟨1, _⟩ => rfl
      | ⟨2, _⟩ => rfl)
    (by show k + 0 = k; omega)]
  exact asMember_apply hb A r c

end Cert.Combine

end
-- ==== Proof.KernelIdealValue.lean ====
/-
  The value of `KernelIdeal`'s result.  A grid point's output tile is the combine of its input blocks (`tile_apply`); an
  input block is a box of its array, so the tile is the corresponding box of the combine of the whole arrays
  (`flushed_eq`); the 25 tiles cover the result's 50000 rows (row `r` lies in tile `r / 2000`), so the result array is
  the combine of the stacked Chebyshev terms, the weights and the bias row as the region finds them.
-/
import proofs.«115591_j56229711839494_2_alg».proof.Proof.KernelIdealFrame
import proofs.«115591_j56229711839494_2_alg».proof.Proof.CombineSpec

set_option maxRecDepth 16384

noncomputable section

namespace Cert.KernelIdeal.CombineValue

open Cert.KernelIdeal Cert.KernelIdeal.Gen Cert.KernelIdeal.Combine Cert.Combine
open Idealize.ShloMosaic Idealize.ShloMosaic.TcCoe Idealize.ShloMosaic.ValueIdx
open Idealize.SL Idealize.SL.Sem
open Idealize.ShloMosaic.Pipeline (Dat Cfg Window)
open scoped BigOperators

theorem hz2 : (![0, 0] : Fin 2 → Nat) = fun _ => 0 := funext fun a => by fin_cases a <;> rfl

/-- The printed product record is the plain one: rows × 64 times 64 × 64. -/
theorem dot_plain : dot_S2000x64_S64x64_S2000x64_1_0_0_1_n_n = DotDims.plain 2000 64 64 := rfl

/-- One slab's product on the matrix unit, read at (r, e): term `k` of the combine of the blocks. -/
theorem slab_term (x0 : Vec Ideal S8x2000x64 .f32) (x1 : Vec Ideal S8x64x64 .f32) (k : Nat) (hk : k < 8)
    (inbT : ∀ a, (![k, 0, 0] : Fin 3 → Nat) a + S1x2000x64.size a ≤ S8x2000x64.size a)
    (inbW : ∀ a, (![k, 0, 0] : Fin 3 → Nat) a + S1x64x64.size a ≤ S8x64x64.size a) (r : Fin 2000) (e : Fin 64) :
    matmul (F := Ideal) dot_S2000x64_S64x64_S2000x64_1_0_0_1_n_n none
        (truncf .bf16 (shapeCast S2000x64 (View.ld x0 (Rect.unit (s := S8x2000x64) ![k, 0, 0] S1x2000x64.size inbT)) shapeCasts_S1x2000x64_S2000x64) bitsLt_bf16_f32)
        (truncf .bf16 (shapeCast S64x64 (View.ld x1 (Rect.unit (s := S8x64x64) ![k, 0, 0] S1x64x64.size inbW)) shapeCasts_S1x64x64_S64x64) bitsLt_bf16_f32)
        (constant S2000x64 .f32 0x00000000#32) (ix2 r e)
      = dotAt x0 x1 k hk r e := by
  rw [slab_product_apply _ dot_plain]
  unfold dotAt
  refine Finset.sum_congr rfl fun c _ => ?_
  rw [ld_slab x0 k hk, ld_slab x1 k hk]

/-- The output tile at (r, e): the zero start, the eight terms in order, the bias of the column. -/
theorem tile_apply (x0 : Vec Ideal S8x2000x64 .f32) (x1 : Vec Ideal S8x64x64 .f32) (x2 : Vec Ideal S1x64 .f32) (r : Fin 2000) (e : Fin 64) :
    tile x0 x1 x2 (ix2 r e) = combineAt x0 x1 (fun e => x2 (ix2 (0 : Fin 1) e)) r e := by
  unfold tile k0_pay1 k0_pay5 k0_pay2 k0_pay3 k0_pay4 k0_pay6 k0_pay7 combineAt
  simp only [addf_apply, broadcast_apply, View.ld_unit_zero (S := S1x64) hz2]
  rw [slab_term x0 x1 0 (by decide), slab_term x0 x1 1 (by decide), slab_term x0 x1 2 (by decide), slab_term x0 x1 3 (by decide),
    slab_term x0 x1 4 (by decide), slab_term x0 x1 5 (by decide), slab_term x0 x1 6 (by decide), slab_term x0 x1 7 (by decide),
    bias_rows_apply]
  show ((((((((Ideal.ofBits .f32 0x00000000#32 + _) + _) + _) + _) + _) + _) + _) + _) + _ = _
  rw [Ideal.ofBits_zero_f32, zero_add]

/-- The tile at any index of the output block. -/
theorem tile_at (x0 : Vec Ideal S8x2000x64 .f32) (x1 : Vec Ideal S8x64x64 .f32) (x2 : Vec Ideal S1x64 .f32) (j : S2000x64.Idx) :
    tile x0 x1 x2 j = combineAt x0 x1 (fun e => x2 (ix2 (0 : Fin 1) e)) (j 0) (j 1) := by
  obtain ⟨r, e, rfl⟩ : ∃ (r : Fin 2000) (e : Fin 64), j = ix2 r e := ⟨j 0, j 1, eq_ix2 j⟩
  exact tile_apply x0 x1 x2 r e

variable (m : (ℓ : Loc nD τ sig) → Buf (Elt Ideal) ℓ) (ρ : Dev nD → PrngReg)

/-- The result array: the combine of the stacked terms, the weights and the bias row, as the region finds them. -/
def result (c : Dev nD) : S50000x64.Idx → EReal := fun i =>
  combineAt (V m c main_v121 : S8x50000x64.Idx → EReal) (V m c main_arg3 : S8x64x64.Idx → EReal)
    (fun e => (V m c main_v122 : S1x64.Idx → EReal) (ix2 (0 : Fin 1) e)) (i 0) (i 1)

/-- The printed index maps, decided over the grid: the stacked terms' block moves down the rows with the output's
    block, the weights' and the bias's blocks stay, and the output's block index is the point's row-tile number. -/
theorem idx_facts : ∀ t : Fin cfg0.N,
    win0_0.index t (0 : Fin 3) = 0 ∧ win0_0.index t (1 : Fin 3) = win0_3.index t (0 : Fin 2) ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (1 : Fin 2) = 0 :=
  (by decide +kernel : ∀ t : Fin grid0.N, _)

/-- Every row tile is some point's. -/
theorem idx_onto : ∀ q : Fin 25, ∃ t : Fin cfg0.N, win0_3.index t = ![q.val, 0] :=
  (by decide +kernel : ∀ q : Fin 25, ∃ t : Fin grid0.N, win0_3.index t = ![q.val, 0])

/-- Term `k` of the blocks at point `t` is term `k` of the arrays at the block's place. -/
theorem term_blk (c : Dev nD) (t : Fin cfg0.N) (k : Nat) (hk : k < 8) (j : S2000x64.Idx) (i : S50000x64.Idx)
    (h0 : (i 0).val = win0_3.index t (0 : Fin 2) * 2000 + (j 0).val) (h1 : (i 1).val = (j 1).val) :
    dotAt (iblk m c 0 t) (iblk m c 1 t) k hk (j 0) (j 1)
      = dotAt (V m c main_v121 : S8x50000x64.Idx → EReal) (V m c main_arg3 : S8x64x64.Idx → EReal) k hk (i 0) (i 1) := by
  obtain ⟨e0, e1, e2, e3, e4, e5, e6, e7, e8⟩ := idx_facts t
  unfold dotAt
  refine Finset.sum_congr rfl fun cc _ => ?_
  have hT : iblk m c 0 t (ix3 ⟨k, hk⟩ (j 0) cc) = (V m c main_v121 : S8x50000x64.Idx → EReal) (ix3 ⟨k, hk⟩ (i 0) cc) := by
    show (V m c main_v121 : S8x50000x64.Idx → EReal) (((cfg0.win 0).blk t).view.emb (ix3 ⟨k, hk⟩ (j 0) cc)) = _
    refine congrArg _ (funext fun a => Fin.ext ?_)
    match a with
    | ⟨0, _⟩ => show win0_0.index t (0 : Fin 3) * 8 + 1 * k = k; omega
    | ⟨1, _⟩ => show win0_0.index t (1 : Fin 3) * 2000 + 1 * (j 0).val = (i 0).val; omega
    | ⟨2, _⟩ => show win0_0.index t (2 : Fin 3) * 64 + 1 * cc.val = cc.val; omega
  have hW : iblk m c 1 t (ix3 ⟨k, hk⟩ cc (j 1)) = (V m c main_arg3 : S8x64x64.Idx → EReal) (ix3 ⟨k, hk⟩ cc (i 1)) := by
    show (V m c main_arg3 : S8x64x64.Idx → EReal) (((cfg0.win 1).blk t).view.emb (ix3 ⟨k, hk⟩ cc (j 1))) = _
    refine congrArg _ (funext fun a => Fin.ext ?_)
    match a with
    | ⟨0, _⟩ => show win0_1.index t (0 : Fin 3) * 8 + 1 * k = k; omega
    | ⟨1, _⟩ => show win0_1.index t (1 : Fin 3) * 64 + 1 * cc.val = cc.val; omega
    | ⟨2, _⟩ => show win0_1.index t (2 : Fin 3) * 64 + 1 * (j 1).val = (i 1).val; omega
  rw [hT, hW]

/-- What point `t` writes back is block `t` of the result. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz2]
  obtain ⟨e0, e1, e2, e3, e4, e5, e6, e7, e8⟩ := idx_facts t
  funext j
  show tile (iblk m c 0 t) (iblk m c 1 t) (iblk m c 2 t) j = result m c (((cfg0.win 3).blk t).view.emb j)
  rw [tile_at]
  unfold result combineAt
  have h0 : ((((cfg0.win 3).blk t).view.emb j) 0).val = win0_3.index t (0 : Fin 2) * 2000 + (j 0).val := by
    show win0_3.index t (0 : Fin 2) * 2000 + 1 * (j 0).val = _; omega
  have h1 : ((((cfg0.win 3).blk t).view.emb j) 1).val = (j 1).val := by
    show win0_3.index t (1 : Fin 2) * 64 + 1 * (j 1).val = _; omega
  have hb : iblk m c 2 t (ix2 (0 : Fin 1) (j 1)) = (V m c main_v122 : S1x64.Idx → EReal) (ix2 (0 : Fin 1) ((((cfg0.win 3).blk t).view.emb j) 1)) := by
    show (V m c main_v122 : S1x64.Idx → EReal) (((cfg0.win 2).blk t).view.emb (ix2 (0 : Fin 1) (j 1))) = _
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * (j 1).val = ((((cfg0.win 3).blk t).view.emb j) 1).val; omega
  rw [term_blk m c t 0 _ j _ h0 h1, term_blk m c t 1 _ j _ h0 h1, term_blk m c t 2 _ j _ h0 h1, term_blk m c t 3 _ j _ h0 h1,
    term_blk m c t 4 _ j _ h0 h1, term_blk m c t 5 _ j _ h0 h1, term_blk m c t 6 _ j _ h0 h1, term_blk m c t 7 _ j _ h0 h1]
  beta_reduce
  rw [hb]

/-- An index of the result is in point `t`'s block iff each coordinate is in the block's range. -/
theorem mem_blk (t : Fin cfg0.N) (i : S50000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v123).slice (win0_3.rect t)).set ↔ _
  rw [View.set_slice_whole, Rect.mem_set_unit]
  exact Iff.rfl

/-- Row `r` of the result lies in the tile numbered `r / 2000`: the tiles cover the array. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 64 ≤ (i 1).val ∧ (i 1).val < win0_3.index t (1 : Fin 2) * 64 + 64; omega

/-- The result array after the run. -/
theorem final (c : Dev nD) : (dats m 0 c).arrAt 3 cfg0.N = result m c :=
  (dats m 0 c).arrAt_eq_of_cover 3 (result m c) (fun t _ => flushed_eq m c t) cover

end Cert.KernelIdeal.CombineValue

end
-- ==== Proof.KernelIdealTerms.lean ====
/-
  The Chebyshev terms as functions of the node features `x`, the edge list `ei` and the edge weights `ew`.
  One propagation step gathers the rows of its operand at the edges' sources (a negative index counted from the end),
  scales each gathered row by its edge's weight, and adds the scaled rows into a zero matrix at the edges'
  destinations; T₁ is one step on `x`, and T_{k+1} = 2 · step(T_k) − T_{k−1}.  The text of each term is the
  operations of @main that compute it, composed.
-/
import proofs.«115591_j56229711839494_2_alg».proof.Proof.Gen.KernelIdeal

set_option maxRecDepth 8192

noncomputable section

namespace Cert.KernelIdeal.Cheb

open Cert.KernelIdeal Cert.KernelIdeal.Facts₀ Idealize.ShloMosaic

variable {F : FTy → Type} [FloatOps F]

/-- The edges' sources: row 0 of the edge list. -/
def src (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The edges' destinations: row 1 of the edge list. -/
def dst (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The gather indices of a step: a negative source counted from the end (50000 added), as a column. -/
def gatherIdx (s : (⟨S800000, .i32⟩ : BufTy).Contents (Elt F)) : (⟨S800000x1, .i32⟩ : BufTy).Contents (Elt F) :=
  broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)

/-- One propagation step on `h` along the edges from `s` to `d` with weights `ew`. -/
def prop (h : (⟨S50000x64, .f32⟩ : BufTy).Contents (Elt F)) (s d : (⟨S800000, .i32⟩ : BufTy).Contents (Elt F)) (ew : (⟨S800000, .f32⟩ : BufTy).Contents (Elt F)) : (⟨S50000x64, .f32⟩ : BufTy).Contents (Elt F) :=
  Host.scatterAdd scatter_S50000x64_S800000x1_S800000x64_1_0_0_1 (broadcastInDim S50000x64 ![] bcast_S_S50000x64 (constant S_ .f32 0x00000000#32)) (broadcastInDim S800000x1 ![0] bcast_S800000_S800000x1_0 d) (mulf (broadcastInDim S800000x64 ![0, 1] bcast_S800000x1_S800000x64_0_1 (broadcastInDim S800000x1 ![0] bcast_S800000_S800000x1_0 ew)) (Host.gather gather_S50000x64_S800000x1_S800000x64_1_0_n_n_0_1_164 h (gatherIdx s)))

/-- The recursion: 2 · step(p) − pp. -/
def next (p pp : (⟨S50000x64, .f32⟩ : BufTy).Contents (Elt F)) (s d : (⟨S800000, .i32⟩ : BufTy).Contents (Elt F)) (ew : (⟨S800000, .f32⟩ : BufTy).Contents (Elt F)) : (⟨S50000x64, .f32⟩ : BufTy).Contents (Elt F) :=
  subf (mulf (broadcastInDim S50000x64 ![] bcast_S_S50000x64 (constant S_ .f32 0x40000000#32)) (prop p s d ew)) pp

/-- T₁: one propagation step on `x`. -/
def t1 (x : (⟨S50000x64, .f32⟩ : BufTy).Contents (Elt F)) (ei : (⟨S2x800000, .i32⟩ : BufTy).Contents (Elt F)) (ew : (⟨S800000, .f32⟩ : BufTy).Contents (Elt F)) : (⟨S50000x64, .f32⟩ : BufTy).Contents (Elt F) :=
  Host.scatterAdd scatter_S50000x64_S800000x1_S800000x64_1_0_0_1 (broadcastInDim S50000x64 ![] bcast_S_S50000x64 (constant S_ .f32 0x00000000#32)) (broadcastInDim S800000x1 ![0] bcast_S800000_S800000x1_0 (dst ei)) (mulf (broadcastInDim S800000x64 ![0, 1] bcast_S800000x1_S800000x64_0_1 (broadcastInDim S800000x1 ![0] bcast_S800000_S800000x1_0 ew)) (Host.gather gather_S50000x64_S800000x1_S800000x64_1_0_n_n_0_1_164 x (broadcastInDim S800000x1 ![0] bcast_S800000_S800000x1_0 (select (cmpi .slt (src ei) (broadcastInDim S800000 ![] bcast_S_S800000 (constantI S_ 32 0#32))) (addi (src ei) (broadcastInDim S800000 ![] bcast_S_S800000 (constantI S_ 32 50000#32))) (src ei)))))

/-- T₂ = 2 · step(T₁) − x. -/
def t2 (x : (⟨S50000x64, .f32⟩ : BufTy).Contents (Elt F)) (ei : (⟨S2x800000, .i32⟩ : BufTy).Contents (Elt F)) (ew : (⟨S800000, .f32⟩ : BufTy).Contents (Elt F)) : (⟨S50000x64, .f32⟩ : BufTy).Contents (Elt F) :=
  subf (mulf (broadcastInDim S50000x64 ![] bcast_S_S50000x64 (constant S_ .f32 0x40000000#32)) (Host.scatterAdd scatter_S50000x64_S800000x1_S800000x64_1_0_0_1 (broadcastInDim S50000x64 ![] bcast_S_S50000x64 (constant S_ .f32 0x00000000#32)) (broadcastInDim S800000x1 ![0] bcast_S800000_S800000x1_0 (dst ei)) (mulf (broadcastInDim S800000x64 ![0, 1] bcast_S800000x1_S800000x64_0_1 (broadcastInDim S800000x1 ![0] bcast_S800000_S800000x1_0 ew)) (Host.gather gather_S50000x64_S800000x1_S800000x64_1_0_n_n_0_1_164 (t1 x ei ew) (broadcastInDim S800000x1 ![0] bcast_S800000_S800000x1_0 (select (cmpi .slt (src ei) (broadcastInDim S800000 ![] bcast_S_S800000 (constantI S_ 32 0#32))) (addi (src ei) (broadcastInDim S800000 ![] bcast_S_S800000 (constantI S_ 32 50000#32))) (src ei))))))) x

/-- T₃ = 2 · step(T₂) − T₁. -/
def t3 (x : (⟨S50000x64, .f32⟩ : BufTy).Contents (Elt F)) (ei : (⟨S2x800000, .i32⟩ : BufTy).Contents (Elt F)) (ew : (⟨S800000, .f32⟩ : BufTy).Contents (Elt F)) : (⟨S50000x64, .f32⟩ : BufTy).Contents (Elt F) :=
  subf (mulf (broadcastInDim S50000x64 ![] bcast_S_S50000x64 (constant S_ .f32 0x40000000#32)) (Host.scatterAdd scatter_S50000x64_S800000x1_S800000x64_1_0_0_1 (broadcastInDim S50000x64 ![] bcast_S_S50000x64 (constant S_ .f32 0x00000000#32)) (broadcastInDim S800000x1 ![0] bcast_S800000_S800000x1_0 (dst ei)) (mulf (broadcastInDim S800000x64 ![0, 1] bcast_S800000x1_S800000x64_0_1 (broadcastInDim S800000x1 ![0] bcast_S800000_S800000x1_0 ew)) (Host.gather gather_S50000x64_S800000x1_S800000x64_1_0_n_n_0_1_164 (t2 x ei ew) (broadcastInDim S800000x1 ![0] bcast_S800000_S800000x1_0 (select (cmpi .slt (src ei) (broadcastInDim S800000 ![] bcast_S_S800000 (constantI S_ 32 0#32))) (addi (src ei) (broadcastInDim S800000 ![] bcast_S_S800000 (constantI S_ 32 50000#32))) (src ei))))))) (t1 x ei ew)

/-- T₄ = 2 · step(T₃) − T₂. -/
def t4 (x : (⟨S50000x64, .f32⟩ : BufTy).Contents (Elt F)) (ei : (⟨S2x800000, .i32⟩ : BufTy).Contents (Elt F)) (ew : (⟨S800000, .f32⟩ : BufTy).Contents (Elt F)) : (⟨S50000x64, .f32⟩ : BufTy).Contents (Elt F) :=
  subf (mulf (broadcastInDim S50000x64 ![] bcast_S_S50000x64 (constant S_ .f32 0x40000000#32)) (Host.scatterAdd scatter_S50000x64_S800000x1_S800000x64_1_0_0_1 (broadcastInDim S50000x64 ![] bcast_S_S50000x64 (constant S_ .f32 0x00000000#32)) (broadcastInDim S800000x1 ![0] bcast_S800000_S800000x1_0 (dst ei)) (mulf (broadcastInDim S800000x64 ![0, 1] bcast_S800000x1_S800000x64_0_1 (broadcastInDim S800000x1 ![0] bcast_S800000_S800000x1_0 ew)) (Host.gather gather_S50000x64_S800000x1_S800000x64_1_0_n_n_0_1_164 (t3 x ei ew) (broadcastInDim S800000x1 ![0] bcast_S800000_S800000x1_0 (select (cmpi .slt (src ei) (broadcastInDim S800000 ![] bcast_S_S800000 (constantI S_ 32 0#32))) (addi (src ei) (broadcastInDim S800000 ![] bcast_S_S800000 (constantI S_ 32 50000#32))) (src ei))))))) (t2 x ei ew)

/-- T₅ = 2 · step(T₄) − T₃. -/
def t5 (x : (⟨S50000x64, .f32⟩ : BufTy).Contents (Elt F)) (ei : (⟨S2x800000, .i32⟩ : BufTy).Contents (Elt F)) (ew : (⟨S800000, .f32⟩ : BufTy).Contents (Elt F)) : (⟨S50000x64, .f32⟩ : BufTy).Contents (Elt F) :=
  subf (mulf (broadcastInDim S50000x64 ![] bcast_S_S50000x64 (constant S_ .f32 0x40000000#32)) (Host.scatterAdd scatter_S50000x64_S800000x1_S800000x64_1_0_0_1 (broadcastInDim S50000x64 ![] bcast_S_S50000x64 (constant S_ .f32 0x00000000#32)) (broadcastInDim S800000x1 ![0] bcast_S800000_S800000x1_0 (dst ei)) (mulf (broadcastInDim S800000x64 ![0, 1] bcast_S800000x1_S800000x64_0_1 (broadcastInDim S800000x1 ![0] bcast_S800000_S800000x1_0 ew)) (Host.gather gather_S50000x64_S800000x1_S800000x64_1_0_n_n_0_1_164 (t4 x ei ew) (broadcastInDim S800000x1 ![0] bcast_S800000_S800000x1_0 (select (cmpi .slt (src ei) (broadcastInDim S800000 ![] bcast_S_S800000 (constantI S_ 32 0#32))) (addi (src ei) (broadcastInDim S800000 ![] bcast_S_S800000 (constantI S_ 32 50000#32))) (src ei))))))) (t3 x ei ew)

/-- T₆ = 2 · step(T₅) − T₄. -/
def t6 (x : (⟨S50000x64, .f32⟩ : BufTy).Contents (Elt F)) (ei : (⟨S2x800000, .i32⟩ : BufTy).Contents (Elt F)) (ew : (⟨S800000, .f32⟩ : BufTy).Contents (Elt F)) : (⟨S50000x64, .f32⟩ : BufTy).Contents (Elt F) :=
  subf (mulf (broadcastInDim S50000x64 ![] bcast_S_S50000x64 (constant S_ .f32 0x40000000#32)) (Host.scatterAdd scatter_S50000x64_S800000x1_S800000x64_1_0_0_1 (broadcastInDim S50000x64 ![] bcast_S_S50000x64 (constant S_ .f32 0x00000000#32)) (broadcastInDim S800000x1 ![0] bcast_S800000_S800000x1_0 (dst ei)) (mulf (broadcastInDim S800000x64 ![0, 1] bcast_S800000x1_S800000x64_0_1 (broadcastInDim S800000x1 ![0] bcast_S800000_S800000x1_0 ew)) (Host.gather gather_S50000x64_S800000x1_S800000x64_1_0_n_n_0_1_164 (t5 x ei ew) (broadcastInDim S800000x1 ![0] bcast_S800000_S800000x1_0 (select (cmpi .slt (src ei) (broadcastInDim S800000 ![] bcast_S_S800000 (constantI S_ 32 0#32))) (addi (src ei) (broadcastInDim S800000 ![] bcast_S_S800000 (constantI S_ 32 50000#32))) (src ei))))))) (t4 x ei ew)

/-- T₇ = 2 · step(T₆) − T₅. -/
def t7 (x : (⟨S50000x64, .f32⟩ : BufTy).Contents (Elt F)) (ei : (⟨S2x800000, .i32⟩ : BufTy).Contents (Elt F)) (ew : (⟨S800000, .f32⟩ : BufTy).Contents (Elt F)) : (⟨S50000x64, .f32⟩ : BufTy).Contents (Elt F) :=
  subf (mulf (broadcastInDim S50000x64 ![] bcast_S_S50000x64 (constant S_ .f32 0x40000000#32)) (Host.scatterAdd scatter_S50000x64_S800000x1_S800000x64_1_0_0_1 (broadcastInDim S50000x64 ![] bcast_S_S50000x64 (constant S_ .f32 0x00000000#32)) (broadcastInDim S800000x1 ![0] bcast_S800000_S800000x1_0 (dst ei)) (mulf (broadcastInDim S800000x64 ![0, 1] bcast_S800000x1_S800000x64_0_1 (broadcastInDim S800000x1 ![0] bcast_S800000_S800000x1_0 ew)) (Host.gather gather_S50000x64_S800000x1_S800000x64_1_0_n_n_0_1_164 (t6 x ei ew) (broadcastInDim S800000x1 ![0] bcast_S800000_S800000x1_0 (select (cmpi .slt (src ei) (broadcastInDim S800000 ![] bcast_S_S800000 (constantI S_ 32 0#32))) (addi (src ei) (broadcastInDim S800000 ![] bcast_S_S800000 (constantI S_ 32 50000#32))) (src ei))))))) (t5 x ei ew)

theorem t1_eq (x : (⟨S50000x64, .f32⟩ : BufTy).Contents (Elt F)) (ei : (⟨S2x800000, .i32⟩ : BufTy).Contents (Elt F)) (ew : (⟨S800000, .f32⟩ : BufTy).Contents (Elt F)) : t1 x ei ew = prop x (src ei) (dst ei) ew := rfl
theorem t2_eq (x : (⟨S50000x64, .f32⟩ : BufTy).Contents (Elt F)) (ei : (⟨S2x800000, .i32⟩ : BufTy).Contents (Elt F)) (ew : (⟨S800000, .f32⟩ : BufTy).Contents (Elt F)) : t2 x ei ew = next (t1 x ei ew) x (src ei) (dst ei) ew := rfl
theorem t3_eq (x : (⟨S50000x64, .f32⟩ : BufTy).Contents (Elt F)) (ei : (⟨S2x800000, .i32⟩ : BufTy).Contents (Elt F)) (ew : (⟨S800000, .f32⟩ : BufTy).Contents (Elt F)) : t3 x ei ew = next (t2 x ei ew) (t1 x ei ew) (src ei) (dst ei) ew := rfl
theorem t4_eq (x : (⟨S50000x64, .f32⟩ : BufTy).Contents (Elt F)) (ei : (⟨S2x800000, .i32⟩ : BufTy).Contents (Elt F)) (ew : (⟨S800000, .f32⟩ : BufTy).Contents (Elt F)) : t4 x ei ew = next (t3 x ei ew) (t2 x ei ew) (src ei) (dst ei) ew := rfl
theorem t5_eq (x : (⟨S50000x64, .f32⟩ : BufTy).Contents (Elt F)) (ei : (⟨S2x800000, .i32⟩ : BufTy).Contents (Elt F)) (ew : (⟨S800000, .f32⟩ : BufTy).Contents (Elt F)) : t5 x ei ew = next (t4 x ei ew) (t3 x ei ew) (src ei) (dst ei) ew := rfl
theorem t6_eq (x : (⟨S50000x64, .f32⟩ : BufTy).Contents (Elt F)) (ei : (⟨S2x800000, .i32⟩ : BufTy).Contents (Elt F)) (ew : (⟨S800000, .f32⟩ : BufTy).Contents (Elt F)) : t6 x ei ew = next (t5 x ei ew) (t4 x ei ew) (src ei) (dst ei) ew := rfl
theorem t7_eq (x : (⟨S50000x64, .f32⟩ : BufTy).Contents (Elt F)) (ei : (⟨S2x800000, .i32⟩ : BufTy).Contents (Elt F)) (ew : (⟨S800000, .f32⟩ : BufTy).Contents (Elt F)) : t7 x ei ew = next (t6 x ei ew) (t5 x ei ew) (src ei) (dst ei) ew := rfl

end Cert.KernelIdeal.Cheb

end
-- ==== Proof.KernelIdealStack.lean ====
/-
  What the region finds in its first and third operand: the host operations before it leave, in the stacked operand,
  the node features and the seven further Chebyshev terms one above the other, and in the bias operand the bias as
  a one-row matrix.  The 150 host operations are read in the three stretches they are printed in: each stretch's results
  as terms of what it found, then the three composed.
-/
import proofs.«115591_j56229711839494_2_alg».proof.Proof.KernelIdealFrame
import proofs.«115591_j56229711839494_2_alg».proof.Proof.KernelIdealTerms
import Idealize.ShloMosaic.Lib.StableHlo.Run
import Idealize.ShloMosaic.PureOps.Ideal

set_option maxRecDepth 16384
set_option maxHeartbeats 4000000

noncomputable section

namespace Cert.KernelIdeal.CombineValue

open Cert.KernelIdeal Cert.KernelIdeal.Gen Cert.KernelIdeal.Combine Cert.KernelIdeal.Cheb
open Idealize.ShloMosaic Idealize.ShloMosaic.TcCoe Idealize.ShloMosaic.StableHlo
open Idealize.SL Idealize.SL.Sem

/-- A matrix as a one-member stack. -/
abbrev asMember (a : (⟨S50000x64, .f32⟩ : BufTy).Contents (Elt Ideal)) : (⟨S1x50000x64, .f32⟩ : BufTy).Contents (Elt Ideal) :=
  broadcastInDim S1x50000x64 ![1, 2] bcast_S50000x64_S1x50000x64_1_2 a

/-- Running two stretches of host operations one after the other. -/
theorem after_append (l₁ l₂ : List (HloOp τ sig (Elt Ideal))) (W : Valuation τ sig (Elt Ideal)) :
    after (l₁ ++ l₂) W = after l₂ (after l₁ W) := by
  induction l₁ generalizing W with
  | nil => rfl
  | cons op ops ih => simp only [List.cons_append, after_cons, ih]

/-- The host operations are the three printed stretches in order. -/
theorem ops_split : (hostOps0 : List (HloOp τ sig (Elt Ideal))) = main_part0_ops0 ++ (main_part1_ops0 ++ main_part2_ops0) := rfl

/-! ## Each stretch: its results as terms of what it found (`sJ_…`), and the buffers it leaves alone (`kJ_…`) -/

theorem s0_v1 (W : Valuation τ sig (Elt Ideal)) :
    after main_part0_ops0 W (Proc.devRef .tc main_v1) = src (W (Proc.devRef .tc main_arg1)) := by
  after_results_simp <;> rfl
theorem s0_v3 (W : Valuation τ sig (Elt Ideal)) :
    after main_part0_ops0 W (Proc.devRef .tc main_v3) = dst (W (Proc.devRef .tc main_arg1)) := by
  after_results_simp <;> rfl
theorem s0_v16 (W : Valuation τ sig (Elt Ideal)) :
    after main_part0_ops0 W (Proc.devRef .tc main_v16) = t1 (W (Proc.devRef .tc main_arg0)) (W (Proc.devRef .tc main_arg1)) (W (Proc.devRef .tc main_arg2)) := by
  after_results_simp <;> rfl
theorem s0_v32 (W : Valuation τ sig (Elt Ideal)) :
    after main_part0_ops0 W (Proc.devRef .tc main_v32) = t2 (W (Proc.devRef .tc main_arg0)) (W (Proc.devRef .tc main_arg1)) (W (Proc.devRef .tc main_arg2)) := by
  after_results_simp <;> rfl
theorem s0_v48 (W : Valuation τ sig (Elt Ideal)) :
    after main_part0_ops0 W (Proc.devRef .tc main_v48) = t3 (W (Proc.devRef .tc main_arg0)) (W (Proc.devRef .tc main_arg1)) (W (Proc.devRef .tc main_arg2)) := by
  after_results_simp <;> rfl
theorem k0_main_arg0 (W : Valuation τ sig (Elt Ideal)) :
    after main_part0_ops0 W (Proc.devRef .tc main_arg0) = (W (Proc.devRef .tc main_arg0)) := by
  after_results_simp <;> rfl
theorem k0_main_arg1 (W : Valuation τ sig (Elt Ideal)) :
    after main_part0_ops0 W (Proc.devRef .tc main_arg1) = (W (Proc.devRef .tc main_arg1)) := by
  after_results_simp <;> rfl
theorem k0_main_arg2 (W : Valuation τ sig (Elt Ideal)) :
    after main_part0_ops0 W (Proc.devRef .tc main_arg2) = (W (Proc.devRef .tc main_arg2)) := by
  after_results_simp <;> rfl
theorem k0_main_arg4 (W : Valuation τ sig (Elt Ideal)) :
    after main_part0_ops0 W (Proc.devRef .tc main_arg4) = (W (Proc.devRef .tc main_arg4)) := by
  after_results_simp <;> rfl
theorem s1_v64 (W : Valuation τ sig (Elt Ideal)) :
    after main_part1_ops0 W (Proc.devRef .tc main_v64) = next (W (Proc.devRef .tc main_v48)) (W (Proc.devRef .tc main_v32)) (W (Proc.devRef .tc main_v1)) (W (Proc.devRef .tc main_v3)) (W (Proc.devRef .tc main_arg2)) := by
  after_results_simp <;> rfl
theorem s1_v80 (W : Valuation τ sig (Elt Ideal)) :
    after main_part1_ops0 W (Proc.devRef .tc main_v80) = next (next (W (Proc.devRef .tc main_v48)) (W (Proc.devRef .tc main_v32)) (W (Proc.devRef .tc main_v1)) (W (Proc.devRef .tc main_v3)) (W (Proc.devRef .tc main_arg2))) (W (Proc.devRef .tc main_v48)) (W (Proc.devRef .tc main_v1)) (W (Proc.devRef .tc main_v3)) (W (Proc.devRef .tc main_arg2)) := by
  after_results_simp <;> rfl
theorem s1_v96 (W : Valuation τ sig (Elt Ideal)) :
    after main_part1_ops0 W (Proc.devRef .tc main_v96) = next (next (next (W (Proc.devRef .tc main_v48)) (W (Proc.devRef .tc main_v32)) (W (Proc.devRef .tc main_v1)) (W (Proc.devRef .tc main_v3)) (W (Proc.devRef .tc main_arg2))) (W (Proc.devRef .tc main_v48)) (W (Proc.devRef .tc main_v1)) (W (Proc.devRef .tc main_v3)) (W (Proc.devRef .tc main_arg2))) (next (W (Proc.devRef .tc main_v48)) (W (Proc.devRef .tc main_v32)) (W (Proc.devRef .tc main_v1)) (W (Proc.devRef .tc main_v3)) (W (Proc.devRef .tc main_arg2))) (W (Proc.devRef .tc main_v1)) (W (Proc.devRef .tc main_v3)) (W (Proc.devRef .tc main_arg2)) := by
  after_results_simp <;> rfl
theorem k1_main_arg0 (W : Valuation τ sig (Elt Ideal)) :
    after main_part1_ops0 W (Proc.devRef .tc main_arg0) = (W (Proc.devRef .tc main_arg0)) := by
  after_results_simp <;> rfl
theorem k1_main_arg2 (W : Valuation τ sig (Elt Ideal)) :
    after main_part1_ops0 W (Proc.devRef .tc main_arg2) = (W (Proc.devRef .tc main_arg2)) := by
  after_results_simp <;> rfl
theorem k1_main_arg4 (W : Valuation τ sig (Elt Ideal)) :
    after main_part1_ops0 W (Proc.devRef .tc main_arg4) = (W (Proc.devRef .tc main_arg4)) := by
  after_results_simp <;> rfl
theorem k1_main_v1 (W : Valuation τ sig (Elt Ideal)) :
    after main_part1_ops0 W (Proc.devRef .tc main_v1) = (W (Proc.devRef .tc main_v1)) := by
  after_results_simp <;> rfl
theorem k1_main_v3 (W : Valuation τ sig (Elt Ideal)) :
    after main_part1_ops0 W (Proc.devRef .tc main_v3) = (W (Proc.devRef .tc main_v3)) := by
  after_results_simp <;> rfl
theorem k1_main_v16 (W : Valuation τ sig (Elt Ideal)) :
    after main_part1_ops0 W (Proc.devRef .tc main_v16) = (W (Proc.devRef .tc main_v16)) := by
  after_results_simp <;> rfl
theorem k1_main_v32 (W : Valuation τ sig (Elt Ideal)) :
    after main_part1_ops0 W (Proc.devRef .tc main_v32) = (W (Proc.devRef .tc main_v32)) := by
  after_results_simp <;> rfl
theorem k1_main_v48 (W : Valuation τ sig (Elt Ideal)) :
    after main_part1_ops0 W (Proc.devRef .tc main_v48) = (W (Proc.devRef .tc main_v48)) := by
  after_results_simp <;> rfl
/-- The third stretch up to the stacking: the last propagation step and the eight one-member stacks. -/
abbrev stackedPrefix {F : FTy → Type} [FloatOps F] : List (HloOp τ sig (Elt F)) :=
  [ StableHlo.unary main_arg2 main_v97 (broadcastInDim S800000x1 ![0] bcast_S800000_S800000x1_0 : (⟨S800000, .f32⟩ : BufTy).Contents (Elt F) → (⟨S800000x1, .f32⟩ : BufTy).Contents (Elt F)),
    StableHlo.nullary main_c_21 (constantI S_ 32 0#32),
    StableHlo.unary main_c_21 main_v98 (broadcastInDim S800000 ![] bcast_S_S800000 : (⟨S_, .i32⟩ : BufTy).Contents (Elt F) → (⟨S800000, .i32⟩ : BufTy).Contents (Elt F)),
    StableHlo.binary main_v1 main_v98 main_v99 (cmpi .slt : (⟨S800000, .i32⟩ : BufTy).Contents (Elt F) → (⟨S800000, .i32⟩ : BufTy).Contents (Elt F) → (⟨S800000, .i1⟩ : BufTy).Contents (Elt F)),
    StableHlo.nullary main_c_22 (constantI S_ 32 50000#32),
    StableHlo.unary main_c_22 main_v100 (broadcastInDim S800000 ![] bcast_S_S800000 : (⟨S_, .i32⟩ : BufTy).Contents (Elt F) → (⟨S800000, .i32⟩ : BufTy).Contents (Elt F)),
    StableHlo.binary main_v1 main_v100 main_v101 (addi : (⟨S800000, .i32⟩ : BufTy).Contents (Elt F) → (⟨S800000, .i32⟩ : BufTy).Contents (Elt F) → (⟨S800000, .i32⟩ : BufTy).Contents (Elt F)),
    StableHlo.ternary main_v99 main_v101 main_v1 main_v102 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v102 main_v103 (broadcastInDim S800000x1 ![0] bcast_S800000_S800000x1_0 : (⟨S800000, .i32⟩ : BufTy).Contents (Elt F) → (⟨S800000x1, .i32⟩ : BufTy).Contents (Elt F)),
    StableHlo.binary main_v96 main_v103 main_v104 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v97 main_v105 (broadcastInDim S800000x64 ![0, 1] bcast_S800000x1_S800000x64_0_1 : (⟨S800000x1, .f32⟩ : BufTy).Contents (Elt F) → (⟨S800000x64, .f32⟩ : BufTy).Contents (Elt F)),
    StableHlo.binary main_v105 main_v104 main_v106 (mulf : (⟨S800000x64, .f32⟩ : BufTy).Contents (Elt F) → (⟨S800000x64, .f32⟩ : BufTy).Contents (Elt F) → (⟨S800000x64, .f32⟩ : BufTy).Contents (Elt F)),
    StableHlo.nullary main_cst_23 (constant S_ .f32 0x00000000#32),
    StableHlo.unary main_cst_23 main_v107 (broadcastInDim S50000x64 ![] bcast_S_S50000x64 : (⟨S_, .f32⟩ : BufTy).Contents (Elt F) → (⟨S50000x64, .f32⟩ : BufTy).Contents (Elt F)),
    StableHlo.unary main_v3 main_v108 (broadcastInDim S800000x1 ![0] bcast_S800000_S800000x1_0 : (⟨S800000, .i32⟩ : BufTy).Contents (Elt F) → (⟨S800000x1, .i32⟩ : BufTy).Contents (Elt F)),
    StableHlo.ternary main_v107 main_v108 main_v106 main_v109 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_24 (constant S_ .f32 0x40000000#32),
    StableHlo.unary main_cst_24 main_v110 (broadcastInDim S50000x64 ![] bcast_S_S50000x64 : (⟨S_, .f32⟩ : BufTy).Contents (Elt F) → (⟨S50000x64, .f32⟩ : BufTy).Contents (Elt F)),
    StableHlo.binary main_v110 main_v109 main_v111 (mulf : (⟨S50000x64, .f32⟩ : BufTy).Contents (Elt F) → (⟨S50000x64, .f32⟩ : BufTy).Contents (Elt F) → (⟨S50000x64, .f32⟩ : BufTy).Contents (Elt F)),
    StableHlo.binary main_v111 main_v80 main_v112 (subf : (⟨S50000x64, .f32⟩ : BufTy).Contents (Elt F) → (⟨S50000x64, .f32⟩ : BufTy).Contents (Elt F) → (⟨S50000x64, .f32⟩ : BufTy).Contents (Elt F)),
    StableHlo.unary main_arg0 main_v113 (broadcastInDim S1x50000x64 ![1, 2] bcast_S50000x64_S1x50000x64_1_2 : (⟨S50000x64, .f32⟩ : BufTy).Contents (Elt F) → (⟨S1x50000x64, .f32⟩ : BufTy).Contents (Elt F)),
    StableHlo.unary main_v16 main_v114 (broadcastInDim S1x50000x64 ![1, 2] bcast_S50000x64_S1x50000x64_1_2 : (⟨S50000x64, .f32⟩ : BufTy).Contents (Elt F) → (⟨S1x50000x64, .f32⟩ : BufTy).Contents (Elt F)),
    StableHlo.unary main_v32 main_v115 (broadcastInDim S1x50000x64 ![1, 2] bcast_S50000x64_S1x50000x64_1_2 : (⟨S50000x64, .f32⟩ : BufTy).Contents (Elt F) → (⟨S1x50000x64, .f32⟩ : BufTy).Contents (Elt F)),
    StableHlo.unary main_v48 main_v116 (broadcastInDim S1x50000x64 ![1, 2] bcast_S50000x64_S1x50000x64_1_2 : (⟨S50000x64, .f32⟩ : BufTy).Contents (Elt F) → (⟨S1x50000x64, .f32⟩ : BufTy).Contents (Elt F)),
    StableHlo.unary main_v64 main_v117 (broadcastInDim S1x50000x64 ![1, 2] bcast_S50000x64_S1x50000x64_1_2 : (⟨S50000x64, .f32⟩ : BufTy).Contents (Elt F) → (⟨S1x50000x64, .f32⟩ : BufTy).Contents (Elt F)),
    StableHlo.unary main_v80 main_v118 (broadcastInDim S1x50000x64 ![1, 2] bcast_S50000x64_S1x50000x64_1_2 : (⟨S50000x64, .f32⟩ : BufTy).Contents (Elt F) → (⟨S1x50000x64, .f32⟩ : BufTy).Contents (Elt F)),
    StableHlo.unary main_v96 main_v119 (broadcastInDim S1x50000x64 ![1, 2] bcast_S50000x64_S1x50000x64_1_2 : (⟨S50000x64, .f32⟩ : BufTy).Contents (Elt F) → (⟨S1x50000x64, .f32⟩ : BufTy).Contents (Elt F)),
    StableHlo.unary main_v112 main_v120 (broadcastInDim S1x50000x64 ![1, 2] bcast_S50000x64_S1x50000x64_1_2 : (⟨S50000x64, .f32⟩ : BufTy).Contents (Elt F) → (⟨S1x50000x64, .f32⟩ : BufTy).Contents (Elt F)) ]

/-- The stacking of the eight members. -/
abbrev stackOp {F : FTy → Type} [FloatOps F] : HloOp τ sig (Elt F) :=
  StableHlo.nary ![main_v113, main_v114, main_v115, main_v116, main_v117, main_v118, main_v119, main_v120] main_v121 (fun u => concatenate S8x50000x64 0 [⟨S1x50000x64, u 0⟩, ⟨S1x50000x64, u 1⟩, ⟨S1x50000x64, u 2⟩, ⟨S1x50000x64, u 3⟩, ⟨S1x50000x64, u 4⟩, ⟨S1x50000x64, u 5⟩, ⟨S1x50000x64, u 6⟩, ⟨S1x50000x64, u 7⟩] concatenates_S1x50000x64_S1x50000x64_S1x50000x64_S1x50000x64_S1x50000x64_S1x50000x64_S1x50000x64_S1x50000x64_S8x50000x64_d0)

/-- The bias made a one-row matrix. -/
abbrev biasOp {F : FTy → Type} [FloatOps F] : HloOp τ sig (Elt F) :=
  StableHlo.reshape main_arg4 main_v122 rfl shapeCasts_S64_S1x64

/-- The third stretch is these, in order. -/
theorem part2_split : (main_part2_ops0 : List (HloOp τ sig (Elt Ideal))) = stackedPrefix ++ [stackOp, biasOp] := rfl

theorem s2_v113 (W : Valuation τ sig (Elt Ideal)) :
    after stackedPrefix W (Proc.devRef .tc main_v113) = asMember (W (Proc.devRef .tc main_arg0)) := by
  after_results_simp <;> rfl
theorem s2_v114 (W : Valuation τ sig (Elt Ideal)) :
    after stackedPrefix W (Proc.devRef .tc main_v114) = asMember (W (Proc.devRef .tc main_v16)) := by
  after_results_simp <;> rfl
theorem s2_v115 (W : Valuation τ sig (Elt Ideal)) :
    after stackedPrefix W (Proc.devRef .tc main_v115) = asMember (W (Proc.devRef .tc main_v32)) := by
  after_results_simp <;> rfl
theorem s2_v116 (W : Valuation τ sig (Elt Ideal)) :
    after stackedPrefix W (Proc.devRef .tc main_v116) = asMember (W (Proc.devRef .tc main_v48)) := by
  after_results_simp <;> rfl
theorem s2_v117 (W : Valuation τ sig (Elt Ideal)) :
    after stackedPrefix W (Proc.devRef .tc main_v117) = asMember (W (Proc.devRef .tc main_v64)) := by
  after_results_simp <;> rfl
theorem s2_v118 (W : Valuation τ sig (Elt Ideal)) :
    after stackedPrefix W (Proc.devRef .tc main_v118) = asMember (W (Proc.devRef .tc main_v80)) := by
  after_results_simp <;> rfl
theorem s2_v119 (W : Valuation τ sig (Elt Ideal)) :
    after stackedPrefix W (Proc.devRef .tc main_v119) = asMember (W (Proc.devRef .tc main_v96)) := by
  after_results_simp <;> rfl
theorem s2_v120 (W : Valuation τ sig (Elt Ideal)) :
    after stackedPrefix W (Proc.devRef .tc main_v120) = asMember (next (W (Proc.devRef .tc main_v96)) (W (Proc.devRef .tc main_v80)) (W (Proc.devRef .tc main_v1)) (W (Proc.devRef .tc main_v3)) (W (Proc.devRef .tc main_arg2))) := by
  after_results_simp <;> rfl
theorem k2_main_arg4 (W : Valuation τ sig (Elt Ideal)) :
    after stackedPrefix W (Proc.devRef .tc main_arg4) = (W (Proc.devRef .tc main_arg4)) := by
  after_results_simp <;> rfl
/-- The last two operations read at the stacked operand: the eight members as they stand, one above the other. -/
theorem tail_v121 (W : Valuation τ sig (Elt Ideal)) :
    after [stackOp, biasOp] W (Proc.devRef .tc main_v121) = concatenate S8x50000x64 0
      [⟨S1x50000x64, (W (Proc.devRef .tc main_v113))⟩, ⟨S1x50000x64, (W (Proc.devRef .tc main_v114))⟩, ⟨S1x50000x64, (W (Proc.devRef .tc main_v115))⟩, ⟨S1x50000x64, (W (Proc.devRef .tc main_v116))⟩, ⟨S1x50000x64, (W (Proc.devRef .tc main_v117))⟩, ⟨S1x50000x64, (W (Proc.devRef .tc main_v118))⟩, ⟨S1x50000x64, (W (Proc.devRef .tc main_v119))⟩, ⟨S1x50000x64, (W (Proc.devRef .tc main_v120))⟩]
      concatenates_S1x50000x64_S1x50000x64_S1x50000x64_S1x50000x64_S1x50000x64_S1x50000x64_S1x50000x64_S1x50000x64_S8x50000x64_d0 := by
  after_results
  rfl

/-- The last two operations read at the bias operand. -/
theorem tail_v122 (W : Valuation τ sig (Elt Ideal)) :
    after [stackOp, biasOp] W (Proc.devRef .tc main_v122) = shapeCast S1x64 (W (Proc.devRef .tc main_arg4)) shapeCasts_S64_S1x64 := by
  after_results
  rfl

theorem s2_v121 (W : Valuation τ sig (Elt Ideal)) :
    after main_part2_ops0 W (Proc.devRef .tc main_v121) = concatenate S8x50000x64 0
      [⟨S1x50000x64, asMember (W (Proc.devRef .tc main_arg0))⟩, ⟨S1x50000x64, asMember (W (Proc.devRef .tc main_v16))⟩, ⟨S1x50000x64, asMember (W (Proc.devRef .tc main_v32))⟩, ⟨S1x50000x64, asMember (W (Proc.devRef .tc main_v48))⟩,
       ⟨S1x50000x64, asMember (W (Proc.devRef .tc main_v64))⟩, ⟨S1x50000x64, asMember (W (Proc.devRef .tc main_v80))⟩, ⟨S1x50000x64, asMember (W (Proc.devRef .tc main_v96))⟩, ⟨S1x50000x64, asMember (next (W (Proc.devRef .tc main_v96)) (W (Proc.devRef .tc main_v80)) (W (Proc.devRef .tc main_v1)) (W (Proc.devRef .tc main_v3)) (W (Proc.devRef .tc main_arg2)))⟩]
      concatenates_S1x50000x64_S1x50000x64_S1x50000x64_S1x50000x64_S1x50000x64_S1x50000x64_S1x50000x64_S1x50000x64_S8x50000x64_d0 := by
  rw [part2_split, after_append, tail_v121]
  rw [s2_v113, s2_v114, s2_v115, s2_v116, s2_v117, s2_v118, s2_v119, s2_v120]

theorem s2_v122 (W : Valuation τ sig (Elt Ideal)) :
    after main_part2_ops0 W (Proc.devRef .tc main_v122) = shapeCast S1x64 (W (Proc.devRef .tc main_arg4)) shapeCasts_S64_S1x64 := by
  rw [part2_split, after_append, tail_v122, k2_main_arg4]

/-! ## The three composed -/

variable (m : (ℓ : Loc nD τ sig) → Buf (Elt Ideal) ℓ)

/-- The region-entry contents are the three stretches run in order from the launch contents. -/
theorem V_eq (c : Dev nD) (b : Ref sig .tc) :
    V m c b = after main_part2_ops0 (after main_part1_ops0 (after main_part0_ops0 (fun b => m (c, b)))) (Proc.devRef .tc b) := by
  show after (List.flatten [hostOps0]) (fun b => m (c, b)) (Proc.devRef .tc b) = _
  rw [show List.flatten [(hostOps0 : List (HloOp τ sig (Elt Ideal)))] = hostOps0 from by simp, ops_split, after_append, after_append]

/-- The stacked operand: the eight Chebyshev terms of the launch contents, one above the other. -/
theorem stack_eq (c : Dev nD) :
    V m c main_v121 = concatenate S8x50000x64 0
      [⟨S1x50000x64, asMember (m ((c : Thread nD τ).loc main_arg0))⟩, ⟨S1x50000x64, asMember (t1 (m ((c : Thread nD τ).loc main_arg0)) (m ((c : Thread nD τ).loc main_arg1)) (m ((c : Thread nD τ).loc main_arg2)))⟩, ⟨S1x50000x64, asMember (t2 (m ((c : Thread nD τ).loc main_arg0)) (m ((c : Thread nD τ).loc main_arg1)) (m ((c : Thread nD τ).loc main_arg2)))⟩, ⟨S1x50000x64, asMember (t3 (m ((c : Thread nD τ).loc main_arg0)) (m ((c : Thread nD τ).loc main_arg1)) (m ((c : Thread nD τ).loc main_arg2)))⟩,
       ⟨S1x50000x64, asMember (t4 (m ((c : Thread nD τ).loc main_arg0)) (m ((c : Thread nD τ).loc main_arg1)) (m ((c : Thread nD τ).loc main_arg2)))⟩, ⟨S1x50000x64, asMember (t5 (m ((c : Thread nD τ).loc main_arg0)) (m ((c : Thread nD τ).loc main_arg1)) (m ((c : Thread nD τ).loc main_arg2)))⟩, ⟨S1x50000x64, asMember (t6 (m ((c : Thread nD τ).loc main_arg0)) (m ((c : Thread nD τ).loc main_arg1)) (m ((c : Thread nD τ).loc main_arg2)))⟩, ⟨S1x50000x64, asMember (t7 (m ((c : Thread nD τ).loc main_arg0)) (m ((c : Thread nD τ).loc main_arg1)) (m ((c : Thread nD τ).loc main_arg2)))⟩]
      concatenates_S1x50000x64_S1x50000x64_S1x50000x64_S1x50000x64_S1x50000x64_S1x50000x64_S1x50000x64_S1x50000x64_S8x50000x64_d0 := by
  rw [V_eq, s2_v121]
  rw [k1_main_arg0, k1_main_v16, k1_main_v32, k1_main_v48, s1_v64, s1_v80, s1_v96, k1_main_v1, k1_main_v3, k1_main_arg2]
  rw [k0_main_arg0, s0_v16, s0_v32, s0_v48, s0_v1, s0_v3, k0_main_arg2]
  rw [← t4_eq, ← t5_eq, ← t6_eq, ← t7_eq]

/-- The bias operand: the bias as a one-row matrix. -/
theorem biasRow_eq (c : Dev nD) :
    V m c main_v122 = shapeCast S1x64 (m ((c : Thread nD τ).loc main_arg4)) shapeCasts_S64_S1x64 := by
  rw [V_eq, s2_v122, k1_main_arg4, k0_main_arg4]

end Cert.KernelIdeal.CombineValue

end
-- ==== Proof.KernelIdealResult.lean ====
/-
  The kernel's result at row `r` and column `e`, in terms of the launch contents: the eight inner products of row `r` of
  the Chebyshev terms with column `e` of the weights, added in order, plus the bias of column `e`.
-/
import proofs.«115591_j56229711839494_2_alg».proof.Proof.KernelIdealValue
import proofs.«115591_j56229711839494_2_alg».proof.Proof.KernelIdealStack

set_option maxRecDepth 16384
set_option maxHeartbeats 4000000

noncomputable section

namespace Cert.KernelIdeal.CombineValue

open Cert.KernelIdeal Cert.KernelIdeal.Gen Cert.KernelIdeal.Combine Cert.KernelIdeal.Cheb Cert.Combine
open Idealize.ShloMosaic Idealize.ShloMosaic.TcCoe Idealize.ShloMosaic.ValueIdx
open Idealize.SL Idealize.SL.Sem
open scoped BigOperators

variable (m : (ℓ : Loc nD τ sig) → Buf (Elt Ideal) ℓ)

/-! Member `k` of the stacked operand is the Chebyshev term `k`. -/

theorem member_0 (c : Dev nD) (r : Fin 50000) (cc : Fin 64) :
    (V m c main_v121 : S8x50000x64.Idx → EReal) (ix3 ⟨0, by decide⟩ r cc) = (m ((c : Thread nD τ).loc main_arg0) : S50000x64.Idx → EReal) (ix2 r cc) := by
  rw [stack_eq]
  exact stack_piece bcast_S50000x64_S1x50000x64_1_2
    [⟨S1x50000x64, asMember (m ((c : Thread nD τ).loc main_arg0))⟩, ⟨S1x50000x64, asMember (t1 (m ((c : Thread nD τ).loc main_arg0)) (m ((c : Thread nD τ).loc main_arg1)) (m ((c : Thread nD τ).loc main_arg2)))⟩, ⟨S1x50000x64, asMember (t2 (m ((c : Thread nD τ).loc main_arg0)) (m ((c : Thread nD τ).loc main_arg1)) (m ((c : Thread nD τ).loc main_arg2)))⟩, ⟨S1x50000x64, asMember (t3 (m ((c : Thread nD τ).loc main_arg0)) (m ((c : Thread nD τ).loc main_arg1)) (m ((c : Thread nD τ).loc main_arg2)))⟩, ⟨S1x50000x64, asMember (t4 (m ((c : Thread nD τ).loc main_arg0)) (m ((c : Thread nD τ).loc main_arg1)) (m ((c : Thread nD τ).loc main_arg2)))⟩, ⟨S1x50000x64, asMember (t5 (m ((c : Thread nD τ).loc main_arg0)) (m ((c : Thread nD τ).loc main_arg1)) (m ((c : Thread nD τ).loc main_arg2)))⟩, ⟨S1x50000x64, asMember (t6 (m ((c : Thread nD τ).loc main_arg0)) (m ((c : Thread nD τ).loc main_arg1)) (m ((c : Thread nD τ).loc main_arg2)))⟩, ⟨S1x50000x64, asMember (t7 (m ((c : Thread nD τ).loc main_arg0)) (m ((c : Thread nD τ).loc main_arg1)) (m ((c : Thread nD τ).loc main_arg2)))⟩]
    concatenates_S1x50000x64_S1x50000x64_S1x50000x64_S1x50000x64_S1x50000x64_S1x50000x64_S1x50000x64_S1x50000x64_S8x50000x64_d0 0 _ (by simp) _ rfl rfl r cc
theorem member_1 (c : Dev nD) (r : Fin 50000) (cc : Fin 64) :
    (V m c main_v121 : S8x50000x64.Idx → EReal) (ix3 ⟨1, by decide⟩ r cc) = (t1 (m ((c : Thread nD τ).loc main_arg0)) (m ((c : Thread nD τ).loc main_arg1)) (m ((c : Thread nD τ).loc main_arg2)) : S50000x64.Idx → EReal) (ix2 r cc) := by
  rw [stack_eq]
  exact stack_piece bcast_S50000x64_S1x50000x64_1_2
    [⟨S1x50000x64, asMember (m ((c : Thread nD τ).loc main_arg0))⟩, ⟨S1x50000x64, asMember (t1 (m ((c : Thread nD τ).loc main_arg0)) (m ((c : Thread nD τ).loc main_arg1)) (m ((c : Thread nD τ).loc main_arg2)))⟩, ⟨S1x50000x64, asMember (t2 (m ((c : Thread nD τ).loc main_arg0)) (m ((c : Thread nD τ).loc main_arg1)) (m ((c : Thread nD τ).loc main_arg2)))⟩, ⟨S1x50000x64, asMember (t3 (m ((c : Thread nD τ).loc main_arg0)) (m ((c : Thread nD τ).loc main_arg1)) (m ((c : Thread nD τ).loc main_arg2)))⟩, ⟨S1x50000x64, asMember (t4 (m ((c : Thread nD τ).loc main_arg0)) (m ((c : Thread nD τ).loc main_arg1)) (m ((c : Thread nD τ).loc main_arg2)))⟩, ⟨S1x50000x64, asMember (t5 (m ((c : Thread nD τ).loc main_arg0)) (m ((c : Thread nD τ).loc main_arg1)) (m ((c : Thread nD τ).loc main_arg2)))⟩, ⟨S1x50000x64, asMember (t6 (m ((c : Thread nD τ).loc main_arg0)) (m ((c : Thread nD τ).loc main_arg1)) (m ((c : Thread nD τ).loc main_arg2)))⟩, ⟨S1x50000x64, asMember (t7 (m ((c : Thread nD τ).loc main_arg0)) (m ((c : Thread nD τ).loc main_arg1)) (m ((c : Thread nD τ).loc main_arg2)))⟩]
    concatenates_S1x50000x64_S1x50000x64_S1x50000x64_S1x50000x64_S1x50000x64_S1x50000x64_S1x50000x64_S1x50000x64_S8x50000x64_d0 1 _ (by simp) _ rfl rfl r cc
theorem member_2 (c : Dev nD) (r : Fin 50000) (cc : Fin 64) :
    (V m c main_v121 : S8x50000x64.Idx → EReal) (ix3 ⟨2, by decide⟩ r cc) = (t2 (m ((c : Thread nD τ).loc main_arg0)) (m ((c : Thread nD τ).loc main_arg1)) (m ((c : Thread nD τ).loc main_arg2)) : S50000x64.Idx → EReal) (ix2 r cc) := by
  rw [stack_eq]
  exact stack_piece bcast_S50000x64_S1x50000x64_1_2
    [⟨S1x50000x64, asMember (m ((c : Thread nD τ).loc main_arg0))⟩, ⟨S1x50000x64, asMember (t1 (m ((c : Thread nD τ).loc main_arg0)) (m ((c : Thread nD τ).loc main_arg1)) (m ((c : Thread nD τ).loc main_arg2)))⟩, ⟨S1x50000x64, asMember (t2 (m ((c : Thread nD τ).loc main_arg0)) (m ((c : Thread nD τ).loc main_arg1)) (m ((c : Thread nD τ).loc main_arg2)))⟩, ⟨S1x50000x64, asMember (t3 (m ((c : Thread nD τ).loc main_arg0)) (m ((c : Thread nD τ).loc main_arg1)) (m ((c : Thread nD τ).loc main_arg2)))⟩, ⟨S1x50000x64, asMember (t4 (m ((c : Thread nD τ).loc main_arg0)) (m ((c : Thread nD τ).loc main_arg1)) (m ((c : Thread nD τ).loc main_arg2)))⟩, ⟨S1x50000x64, asMember (t5 (m ((c : Thread nD τ).loc main_arg0)) (m ((c : Thread nD τ).loc main_arg1)) (m ((c : Thread nD τ).loc main_arg2)))⟩, ⟨S1x50000x64, asMember (t6 (m ((c : Thread nD τ).loc main_arg0)) (m ((c : Thread nD τ).loc main_arg1)) (m ((c : Thread nD τ).loc main_arg2)))⟩, ⟨S1x50000x64, asMember (t7 (m ((c : Thread nD τ).loc main_arg0)) (m ((c : Thread nD τ).loc main_arg1)) (m ((c : Thread nD τ).loc main_arg2)))⟩]
    concatenates_S1x50000x64_S1x50000x64_S1x50000x64_S1x50000x64_S1x50000x64_S1x50000x64_S1x50000x64_S1x50000x64_S8x50000x64_d0 2 _ (by simp) _ rfl rfl r cc
theorem member_3 (c : Dev nD) (r : Fin 50000) (cc : Fin 64) :
    (V m c main_v121 : S8x50000x64.Idx → EReal) (ix3 ⟨3, by decide⟩ r cc) = (t3 (m ((c : Thread nD τ).loc main_arg0)) (m ((c : Thread nD τ).loc main_arg1)) (m ((c : Thread nD τ).loc main_arg2)) : S50000x64.Idx → EReal) (ix2 r cc) := by
  rw [stack_eq]
  exact stack_piece bcast_S50000x64_S1x50000x64_1_2
    [⟨S1x50000x64, asMember (m ((c : Thread nD τ).loc main_arg0))⟩, ⟨S1x50000x64, asMember (t1 (m ((c : Thread nD τ).loc main_arg0)) (m ((c : Thread nD τ).loc main_arg1)) (m ((c : Thread nD τ).loc main_arg2)))⟩, ⟨S1x50000x64, asMember (t2 (m ((c : Thread nD τ).loc main_arg0)) (m ((c : Thread nD τ).loc main_arg1)) (m ((c : Thread nD τ).loc main_arg2)))⟩, ⟨S1x50000x64, asMember (t3 (m ((c : Thread nD τ).loc main_arg0)) (m ((c : Thread nD τ).loc main_arg1)) (m ((c : Thread nD τ).loc main_arg2)))⟩, ⟨S1x50000x64, asMember (t4 (m ((c : Thread nD τ).loc main_arg0)) (m ((c : Thread nD τ).loc main_arg1)) (m ((c : Thread nD τ).loc main_arg2)))⟩, ⟨S1x50000x64, asMember (t5 (m ((c : Thread nD τ).loc main_arg0)) (m ((c : Thread nD τ).loc main_arg1)) (m ((c : Thread nD τ).loc main_arg2)))⟩, ⟨S1x50000x64, asMember (t6 (m ((c : Thread nD τ).loc main_arg0)) (m ((c : Thread nD τ).loc main_arg1)) (m ((c : Thread nD τ).loc main_arg2)))⟩, ⟨S1x50000x64, asMember (t7 (m ((c : Thread nD τ).loc main_arg0)) (m ((c : Thread nD τ).loc main_arg1)) (m ((c : Thread nD τ).loc main_arg2)))⟩]
    concatenates_S1x50000x64_S1x50000x64_S1x50000x64_S1x50000x64_S1x50000x64_S1x50000x64_S1x50000x64_S1x50000x64_S8x50000x64_d0 3 _ (by simp) _ rfl rfl r cc
theorem member_4 (c : Dev nD) (r : Fin 50000) (cc : Fin 64) :
    (V m c main_v121 : S8x50000x64.Idx → EReal) (ix3 ⟨4, by decide⟩ r cc) = (t4 (m ((c : Thread nD τ).loc main_arg0)) (m ((c : Thread nD τ).loc main_arg1)) (m ((c : Thread nD τ).loc main_arg2)) : S50000x64.Idx → EReal) (ix2 r cc) := by
  rw [stack_eq]
  exact stack_piece bcast_S50000x64_S1x50000x64_1_2
    [⟨S1x50000x64, asMember (m ((c : Thread nD τ).loc main_arg0))⟩, ⟨S1x50000x64, asMember (t1 (m ((c : Thread nD τ).loc main_arg0)) (m ((c : Thread nD τ).loc main_arg1)) (m ((c : Thread nD τ).loc main_arg2)))⟩, ⟨S1x50000x64, asMember (t2 (m ((c : Thread nD τ).loc main_arg0)) (m ((c : Thread nD τ).loc main_arg1)) (m ((c : Thread nD τ).loc main_arg2)))⟩, ⟨S1x50000x64, asMember (t3 (m ((c : Thread nD τ).loc main_arg0)) (m ((c : Thread nD τ).loc main_arg1)) (m ((c : Thread nD τ).loc main_arg2)))⟩, ⟨S1x50000x64, asMember (t4 (m ((c : Thread nD τ).loc main_arg0)) (m ((c : Thread nD τ).loc main_arg1)) (m ((c : Thread nD τ).loc main_arg2)))⟩, ⟨S1x50000x64, asMember (t5 (m ((c : Thread nD τ).loc main_arg0)) (m ((c : Thread nD τ).loc main_arg1)) (m ((c : Thread nD τ).loc main_arg2)))⟩, ⟨S1x50000x64, asMember (t6 (m ((c : Thread nD τ).loc main_arg0)) (m ((c : Thread nD τ).loc main_arg1)) (m ((c : Thread nD τ).loc main_arg2)))⟩, ⟨S1x50000x64, asMember (t7 (m ((c : Thread nD τ).loc main_arg0)) (m ((c : Thread nD τ).loc main_arg1)) (m ((c : Thread nD τ).loc main_arg2)))⟩]
    concatenates_S1x50000x64_S1x50000x64_S1x50000x64_S1x50000x64_S1x50000x64_S1x50000x64_S1x50000x64_S1x50000x64_S8x50000x64_d0 4 _ (by simp) _ rfl rfl r cc
theorem member_5 (c : Dev nD) (r : Fin 50000) (cc : Fin 64) :
    (V m c main_v121 : S8x50000x64.Idx → EReal) (ix3 ⟨5, by decide⟩ r cc) = (t5 (m ((c : Thread nD τ).loc main_arg0)) (m ((c : Thread nD τ).loc main_arg1)) (m ((c : Thread nD τ).loc main_arg2)) : S50000x64.Idx → EReal) (ix2 r cc) := by
  rw [stack_eq]
  exact stack_piece bcast_S50000x64_S1x50000x64_1_2
    [⟨S1x50000x64, asMember (m ((c : Thread nD τ).loc main_arg0))⟩, ⟨S1x50000x64, asMember (t1 (m ((c : Thread nD τ).loc main_arg0)) (m ((c : Thread nD τ).loc main_arg1)) (m ((c : Thread nD τ).loc main_arg2)))⟩, ⟨S1x50000x64, asMember (t2 (m ((c : Thread nD τ).loc main_arg0)) (m ((c : Thread nD τ).loc main_arg1)) (m ((c : Thread nD τ).loc main_arg2)))⟩, ⟨S1x50000x64, asMember (t3 (m ((c : Thread nD τ).loc main_arg0)) (m ((c : Thread nD τ).loc main_arg1)) (m ((c : Thread nD τ).loc main_arg2)))⟩, ⟨S1x50000x64, asMember (t4 (m ((c : Thread nD τ).loc main_arg0)) (m ((c : Thread nD τ).loc main_arg1)) (m ((c : Thread nD τ).loc main_arg2)))⟩, ⟨S1x50000x64, asMember (t5 (m ((c : Thread nD τ).loc main_arg0)) (m ((c : Thread nD τ).loc main_arg1)) (m ((c : Thread nD τ).loc main_arg2)))⟩, ⟨S1x50000x64, asMember (t6 (m ((c : Thread nD τ).loc main_arg0)) (m ((c : Thread nD τ).loc main_arg1)) (m ((c : Thread nD τ).loc main_arg2)))⟩, ⟨S1x50000x64, asMember (t7 (m ((c : Thread nD τ).loc main_arg0)) (m ((c : Thread nD τ).loc main_arg1)) (m ((c : Thread nD τ).loc main_arg2)))⟩]
    concatenates_S1x50000x64_S1x50000x64_S1x50000x64_S1x50000x64_S1x50000x64_S1x50000x64_S1x50000x64_S1x50000x64_S8x50000x64_d0 5 _ (by simp) _ rfl rfl r cc
theorem member_6 (c : Dev nD) (r : Fin 50000) (cc : Fin 64) :
    (V m c main_v121 : S8x50000x64.Idx → EReal) (ix3 ⟨6, by decide⟩ r cc) = (t6 (m ((c : Thread nD τ).loc main_arg0)) (m ((c : Thread nD τ).loc main_arg1)) (m ((c : Thread nD τ).loc main_arg2)) : S50000x64.Idx → EReal) (ix2 r cc) := by
  rw [stack_eq]
  exact stack_piece bcast_S50000x64_S1x50000x64_1_2
    [⟨S1x50000x64, asMember (m ((c : Thread nD τ).loc main_arg0))⟩, ⟨S1x50000x64, asMember (t1 (m ((c : Thread nD τ).loc main_arg0)) (m ((c : Thread nD τ).loc main_arg1)) (m ((c : Thread nD τ).loc main_arg2)))⟩, ⟨S1x50000x64, asMember (t2 (m ((c : Thread nD τ).loc main_arg0)) (m ((c : Thread nD τ).loc main_arg1)) (m ((c : Thread nD τ).loc main_arg2)))⟩, ⟨S1x50000x64, asMember (t3 (m ((c : Thread nD τ).loc main_arg0)) (m ((c : Thread nD τ).loc main_arg1)) (m ((c : Thread nD τ).loc main_arg2)))⟩, ⟨S1x50000x64, asMember (t4 (m ((c : Thread nD τ).loc main_arg0)) (m ((c : Thread nD τ).loc main_arg1)) (m ((c : Thread nD τ).loc main_arg2)))⟩, ⟨S1x50000x64, asMember (t5 (m ((c : Thread nD τ).loc main_arg0)) (m ((c : Thread nD τ).loc main_arg1)) (m ((c : Thread nD τ).loc main_arg2)))⟩, ⟨S1x50000x64, asMember (t6 (m ((c : Thread nD τ).loc main_arg0)) (m ((c : Thread nD τ).loc main_arg1)) (m ((c : Thread nD τ).loc main_arg2)))⟩, ⟨S1x50000x64, asMember (t7 (m ((c : Thread nD τ).loc main_arg0)) (m ((c : Thread nD τ).loc main_arg1)) (m ((c : Thread nD τ).loc main_arg2)))⟩]
    concatenates_S1x50000x64_S1x50000x64_S1x50000x64_S1x50000x64_S1x50000x64_S1x50000x64_S1x50000x64_S1x50000x64_S8x50000x64_d0 6 _ (by simp) _ rfl rfl r cc
theorem member_7 (c : Dev nD) (r : Fin 50000) (cc : Fin 64) :
    (V m c main_v121 : S8x50000x64.Idx → EReal) (ix3 ⟨7, by decide⟩ r cc) = (t7 (m ((c : Thread nD τ).loc main_arg0)) (m ((c : Thread nD τ).loc main_arg1)) (m ((c : Thread nD τ).loc main_arg2)) : S50000x64.Idx → EReal) (ix2 r cc) := by
  rw [stack_eq]
  exact stack_piece bcast_S50000x64_S1x50000x64_1_2
    [⟨S1x50000x64, asMember (m ((c : Thread nD τ).loc main_arg0))⟩, ⟨S1x50000x64, asMember (t1 (m ((c : Thread nD τ).loc main_arg0)) (m ((c : Thread nD τ).loc main_arg1)) (m ((c : Thread nD τ).loc main_arg2)))⟩, ⟨S1x50000x64, asMember (t2 (m ((c : Thread nD τ).loc main_arg0)) (m ((c : Thread nD τ).loc main_arg1)) (m ((c : Thread nD τ).loc main_arg2)))⟩, ⟨S1x50000x64, asMember (t3 (m ((c : Thread nD τ).loc main_arg0)) (m ((c : Thread nD τ).loc main_arg1)) (m ((c : Thread nD τ).loc main_arg2)))⟩, ⟨S1x50000x64, asMember (t4 (m ((c : Thread nD τ).loc main_arg0)) (m ((c : Thread nD τ).loc main_arg1)) (m ((c : Thread nD τ).loc main_arg2)))⟩, ⟨S1x50000x64, asMember (t5 (m ((c : Thread nD τ).loc main_arg0)) (m ((c : Thread nD τ).loc main_arg1)) (m ((c : Thread nD τ).loc main_arg2)))⟩, ⟨S1x50000x64, asMember (t6 (m ((c : Thread nD τ).loc main_arg0)) (m ((c : Thread nD τ).loc main_arg1)) (m ((c : Thread nD τ).loc main_arg2)))⟩, ⟨S1x50000x64, asMember (t7 (m ((c : Thread nD τ).loc main_arg0)) (m ((c : Thread nD τ).loc main_arg1)) (m ((c : Thread nD τ).loc main_arg2)))⟩]
    concatenates_S1x50000x64_S1x50000x64_S1x50000x64_S1x50000x64_S1x50000x64_S1x50000x64_S1x50000x64_S1x50000x64_S8x50000x64_d0 7 _ (by simp) _ rfl rfl r cc

/-- The result at (r, e). -/
theorem result_apply (c : Dev nD) (r : Fin 50000) (e : Fin 64) :
    result m c (ix2 r e) = (((((((termOf (m ((c : Thread nD τ).loc main_arg0) : S50000x64.Idx → EReal) (m ((c : Thread nD τ).loc main_arg3) : S8x64x64.Idx → EReal) 0 (by decide) r e + termOf (t1 (m ((c : Thread nD τ).loc main_arg0)) (m ((c : Thread nD τ).loc main_arg1)) (m ((c : Thread nD τ).loc main_arg2)) : S50000x64.Idx → EReal) (m ((c : Thread nD τ).loc main_arg3) : S8x64x64.Idx → EReal) 1 (by decide) r e) + termOf (t2 (m ((c : Thread nD τ).loc main_arg0)) (m ((c : Thread nD τ).loc main_arg1)) (m ((c : Thread nD τ).loc main_arg2)) : S50000x64.Idx → EReal) (m ((c : Thread nD τ).loc main_arg3) : S8x64x64.Idx → EReal) 2 (by decide) r e) + termOf (t3 (m ((c : Thread nD τ).loc main_arg0)) (m ((c : Thread nD τ).loc main_arg1)) (m ((c : Thread nD τ).loc main_arg2)) : S50000x64.Idx → EReal) (m ((c : Thread nD τ).loc main_arg3) : S8x64x64.Idx → EReal) 3 (by decide) r e) + termOf (t4 (m ((c : Thread nD τ).loc main_arg0)) (m ((c : Thread nD τ).loc main_arg1)) (m ((c : Thread nD τ).loc main_arg2)) : S50000x64.Idx → EReal) (m ((c : Thread nD τ).loc main_arg3) : S8x64x64.Idx → EReal) 4 (by decide) r e) + termOf (t5 (m ((c : Thread nD τ).loc main_arg0)) (m ((c : Thread nD τ).loc main_arg1)) (m ((c : Thread nD τ).loc main_arg2)) : S50000x64.Idx → EReal) (m ((c : Thread nD τ).loc main_arg3) : S8x64x64.Idx → EReal) 5 (by decide) r e) + termOf (t6 (m ((c : Thread nD τ).loc main_arg0)) (m ((c : Thread nD τ).loc main_arg1)) (m ((c : Thread nD τ).loc main_arg2)) : S50000x64.Idx → EReal) (m ((c : Thread nD τ).loc main_arg3) : S8x64x64.Idx → EReal) 6 (by decide) r e) + termOf (t7 (m ((c : Thread nD τ).loc main_arg0)) (m ((c : Thread nD τ).loc main_arg1)) (m ((c : Thread nD τ).loc main_arg2)) : S50000x64.Idx → EReal) (m ((c : Thread nD τ).loc main_arg3) : S8x64x64.Idx → EReal) 7 (by decide) r e) + (m ((c : Thread nD τ).loc main_arg4) : S64.Idx → EReal) (ix1 e) := by
  show combineAt (V m c main_v121 : S8x50000x64.Idx → EReal) (V m c main_arg3 : S8x64x64.Idx → EReal)
    (fun e => (V m c main_v122 : S1x64.Idx → EReal) (ix2 (0 : Fin 1) e)) r e = _
  unfold combineAt
  rw [dotAt_of_member _ (m ((c : Thread nD τ).loc main_arg0) : S50000x64.Idx → EReal) _ 0 _ (fun r cc => member_0 m c r cc),
    dotAt_of_member _ (t1 (m ((c : Thread nD τ).loc main_arg0)) (m ((c : Thread nD τ).loc main_arg1)) (m ((c : Thread nD τ).loc main_arg2)) : S50000x64.Idx → EReal) _ 1 _ (fun r cc => member_1 m c r cc),
    dotAt_of_member _ (t2 (m ((c : Thread nD τ).loc main_arg0)) (m ((c : Thread nD τ).loc main_arg1)) (m ((c : Thread nD τ).loc main_arg2)) : S50000x64.Idx → EReal) _ 2 _ (fun r cc => member_2 m c r cc),
    dotAt_of_member _ (t3 (m ((c : Thread nD τ).loc main_arg0)) (m ((c : Thread nD τ).loc main_arg1)) (m ((c : Thread nD τ).loc main_arg2)) : S50000x64.Idx → EReal) _ 3 _ (fun r cc => member_3 m c r cc),
    dotAt_of_member _ (t4 (m ((c : Thread nD τ).loc main_arg0)) (m ((c : Thread nD τ).loc main_arg1)) (m ((c : Thread nD τ).loc main_arg2)) : S50000x64.Idx → EReal) _ 4 _ (fun r cc => member_4 m c r cc),
    dotAt_of_member _ (t5 (m ((c : Thread nD τ).loc main_arg0)) (m ((c : Thread nD τ).loc main_arg1)) (m ((c : Thread nD τ).loc main_arg2)) : S50000x64.Idx → EReal) _ 5 _ (fun r cc => member_5 m c r cc),
    dotAt_of_member _ (t6 (m ((c : Thread nD τ).loc main_arg0)) (m ((c : Thread nD τ).loc main_arg1)) (m ((c : Thread nD τ).loc main_arg2)) : S50000x64.Idx → EReal) _ 6 _ (fun r cc => member_6 m c r cc),
    dotAt_of_member _ (t7 (m ((c : Thread nD τ).loc main_arg0)) (m ((c : Thread nD τ).loc main_arg1)) (m ((c : Thread nD τ).loc main_arg2)) : S50000x64.Idx → EReal) _ 7 _ (fun r cc => member_7 m c r cc)]
  rw [V_arg m c main_arg3 (by simp)]
  beta_reduce
  rw [biasRow_eq]
  rw [shapeCast_apply (m ((c : Thread nD τ).loc main_arg4) : S64.Idx → EReal) shapeCasts_S64_S1x64 (ix2 (0 : Fin 1) e) (ix1 e) (by
    show (S64.rowMajor (ix1 e)).val = (S1x64.rowMajor (ix2 (0 : Fin 1) e)).val
    rw [Shape.rowMajor_val_one, Shape.rowMajor_val_two]; show e.val = 0 * 64 + e.val; omega)]

end Cert.KernelIdeal.CombineValue

end
-- ==== Proof.RefValue.lean ====
/-
  The reference's result, index by index.  Its @main adds the eight host products T_k · W[k] in order and then the bias
  laid along every row; read at row `r` and column `e` that is the eight inner products of row `r` of T_k with
  column `e` of W[k], added in order, plus the bias of column `e`.
-/
import proofs.«115591_j56229711839494_2_alg».proof.Proof.Gen.ReferenceIdeal.Run
import proofs.«115591_j56229711839494_2_alg».proof.Proof.CombineSpec

set_option maxRecDepth 8192

noncomputable section

namespace Cert.ReferenceIdeal.RefValue

open Cert.ReferenceIdeal Cert.ReferenceIdeal.Facts₀ Cert.Combine
open Idealize.ShloMosaic Idealize.ShloMosaic.ValueIdx
open scoped BigOperators

/-- The printed product record is the plain one: 50000 × 64 times 64 × 64. -/
theorem dot_plain : dot_S50000x64_S64x64_S50000x64_1_0_0_1_n_n = DotDims.plain 50000 64 64 := rfl

/-- The bias made a one-row matrix and laid along every row, read at (r, e), is its entry e. -/
theorem bias_apply (b : FVec Ideal S64 .f32) (r : Fin 50000) (e : Fin 64) :
    broadcastInDim S50000x64 ![0, 1] bcast_S1x64_S50000x64_0_1 (broadcastInDim S1x64 ![1] bcast_S64_S1x64_1 b) (ix2 r e) = b (ix1 e) := by
  rw [broadcastInDim_oneRow_apply]
  refine broadcastInDim_apply ![1] bcast_S64_S1x64_1 b (ix2 (0 : Fin 1) e) (ix1 e) ?_
  intro a
  match a with
  | ⟨0, _⟩ => rfl

/-- The reference's result at (r, e), for any eight matrices in the place of the Chebyshev terms. -/
theorem result_apply (A0 A1 A2 A3 A4 A5 A6 A7 : FVec Ideal S50000x64 .f32) (W : FVec Ideal S8x64x64 .f32) (b : FVec Ideal S64 .f32)
    (r : Fin 50000) (e : Fin 64) :
    (addf (addf (addf (addf (addf (addf (addf (addf (Host.dotGeneral dot_S50000x64_S64x64_S50000x64_1_0_0_1_n_n none A0 (shapeCast S64x64 (extractStridedSlice S1x64x64 ![0, 0, 0] W slices_S8x64x64_S1x64x64_0_0_0) shapeCasts_S1x64x64_S64x64)) (Host.dotGeneral dot_S50000x64_S64x64_S50000x64_1_0_0_1_n_n none A1 (shapeCast S64x64 (extractStridedSlice S1x64x64 ![1, 0, 0] W slices_S8x64x64_S1x64x64_1_0_0) shapeCasts_S1x64x64_S64x64))) (Host.dotGeneral dot_S50000x64_S64x64_S50000x64_1_0_0_1_n_n none A2 (shapeCast S64x64 (extractStridedSlice S1x64x64 ![2, 0, 0] W slices_S8x64x64_S1x64x64_2_0_0) shapeCasts_S1x64x64_S64x64))) (Host.dotGeneral dot_S50000x64_S64x64_S50000x64_1_0_0_1_n_n none A3 (shapeCast S64x64 (extractStridedSlice S1x64x64 ![3, 0, 0] W slices_S8x64x64_S1x64x64_3_0_0) shapeCasts_S1x64x64_S64x64))) (Host.dotGeneral dot_S50000x64_S64x64_S50000x64_1_0_0_1_n_n none A4 (shapeCast S64x64 (extractStridedSlice S1x64x64 ![4, 0, 0] W slices_S8x64x64_S1x64x64_4_0_0) shapeCasts_S1x64x64_S64x64))) (Host.dotGeneral dot_S50000x64_S64x64_S50000x64_1_0_0_1_n_n none A5 (shapeCast S64x64 (extractStridedSlice S1x64x64 ![5, 0, 0] W slices_S8x64x64_S1x64x64_5_0_0) shapeCasts_S1x64x64_S64x64))) (Host.dotGeneral dot_S50000x64_S64x64_S50000x64_1_0_0_1_n_n none A6 (shapeCast S64x64 (extractStridedSlice S1x64x64 ![6, 0, 0] W slices_S8x64x64_S1x64x64_6_0_0) shapeCasts_S1x64x64_S64x64))) (Host.dotGeneral dot_S50000x64_S64x64_S50000x64_1_0_0_1_n_n none A7 (shapeCast S64x64 (extractStridedSlice S1x64x64 ![7, 0, 0] W slices_S8x64x64_S1x64x64_7_0_0) shapeCasts_S1x64x64_S64x64))) (broadcastInDim S50000x64 ![0, 1] bcast_S1x64_S50000x64_0_1 (broadcastInDim S1x64 ![1] bcast_S64_S1x64_1 b))) (ix2 r e)
      = (((((((termOf A0 W 0 (by decide) r e + termOf A1 W 1 (by decide) r e) + termOf A2 W 2 (by decide) r e) + termOf A3 W 3 (by decide) r e)
          + termOf A4 W 4 (by decide) r e) + termOf A5 W 5 (by decide) r e) + termOf A6 W 6 (by decide) r e) + termOf A7 W 7 (by decide) r e)
        + b (ix1 e) := by
  simp only [addf_apply]
  rw [host_product_apply _ dot_plain A0 W 0 (by decide), host_product_apply _ dot_plain A1 W 1 (by decide),
    host_product_apply _ dot_plain A2 W 2 (by decide), host_product_apply _ dot_plain A3 W 3 (by decide),
    host_product_apply _ dot_plain A4 W 4 (by decide), host_product_apply _ dot_plain A5 W 5 (by decide),
    host_product_apply _ dot_plain A6 W 6 (by decide), host_product_apply _ dot_plain A7 W 7 (by decide), bias_apply]
  rfl

end Cert.ReferenceIdeal.RefValue

end
-- ==== Proof.Bridge.lean ====
/-
  The reference's named intermediate results are the Chebyshev terms of its launch contents: both programs print the same
  propagation operations, so each named result, read as a term of the three arguments, is the term the kernel's host
  operations leave in the stacked operand.
-/
import proofs.«115591_j56229711839494_2_alg».proof.Proof.KernelIdealTerms
import proofs.«115591_j56229711839494_2_alg».proof.Proof.Gen.ReferenceIdeal.Run
import Idealize.ShloMosaic.PureOps.Ideal

set_option maxRecDepth 16384
set_option maxHeartbeats 4000000

noncomputable section

namespace Cert.Proof.Bridge

open Idealize.ShloMosaic Idealize.ShloMosaic.TcCoe Idealize.ShloMosaic.StableHlo
open Idealize.SL Idealize.SL.Sem
open Cert.KernelIdeal.Cheb

/-! ## The reference's named results are the Chebyshev terms of its launch contents -/

section RefTerms
open Cert.ReferenceIdeal Cert.ReferenceIdeal.Facts₀ Cert.ReferenceIdeal.Value
variable (V0 : Valuation Cert.ReferenceIdeal.τ Cert.ReferenceIdeal.sig (Elt Ideal))

theorem ref_src : res_main_v1 V0 = src (V0 (Proc.devRef .tc Cert.ReferenceIdeal.main_arg1)) := rfl
theorem ref_dst : res_main_v3 V0 = dst (V0 (Proc.devRef .tc Cert.ReferenceIdeal.main_arg1)) := rfl
theorem ref_t1 : res_main_v19 V0 = t1 (V0 (Proc.devRef .tc Cert.ReferenceIdeal.main_arg0)) (V0 (Proc.devRef .tc Cert.ReferenceIdeal.main_arg1)) (V0 (Proc.devRef .tc Cert.ReferenceIdeal.main_arg2)) := rfl
theorem ref_t2 : res_main_v39 V0 = t2 (V0 (Proc.devRef .tc Cert.ReferenceIdeal.main_arg0)) (V0 (Proc.devRef .tc Cert.ReferenceIdeal.main_arg1)) (V0 (Proc.devRef .tc Cert.ReferenceIdeal.main_arg2)) := by
  unfold res_main_v39 t2; rw [ref_t1, ref_src, ref_dst]; rfl
theorem ref_t3 : res_main_v59 V0 = t3 (V0 (Proc.devRef .tc Cert.ReferenceIdeal.main_arg0)) (V0 (Proc.devRef .tc Cert.ReferenceIdeal.main_arg1)) (V0 (Proc.devRef .tc Cert.ReferenceIdeal.main_arg2)) := by
  unfold res_main_v59 t3; rw [ref_t2, ref_t1, ref_src, ref_dst]; rfl
theorem ref_t4 : res_main_v79 V0 = t4 (V0 (Proc.devRef .tc Cert.ReferenceIdeal.main_arg0)) (V0 (Proc.devRef .tc Cert.ReferenceIdeal.main_arg1)) (V0 (Proc.devRef .tc Cert.ReferenceIdeal.main_arg2)) := by
  unfold res_main_v79 t4; rw [ref_t3, ref_t2, ref_src, ref_dst]; rfl
theorem ref_t5 : res_main_v99 V0 = t5 (V0 (Proc.devRef .tc Cert.ReferenceIdeal.main_arg0)) (V0 (Proc.devRef .tc Cert.ReferenceIdeal.main_arg1)) (V0 (Proc.devRef .tc Cert.ReferenceIdeal.main_arg2)) := by
  unfold res_main_v99 t5; rw [ref_t4, ref_t3, ref_src, ref_dst]; rfl
theorem ref_t6 : res_main_v119 V0 = t6 (V0 (Proc.devRef .tc Cert.ReferenceIdeal.main_arg0)) (V0 (Proc.devRef .tc Cert.ReferenceIdeal.main_arg1)) (V0 (Proc.devRef .tc Cert.ReferenceIdeal.main_arg2)) := by
  unfold res_main_v119 t6; rw [ref_t5, ref_t4, ref_src, ref_dst]; rfl
/-- The last term, which the reference's run states inline. -/
theorem ref_t7 : (subf (mulf (broadcastInDim S50000x64 ![] bcast_S_S50000x64 (constant S_ .f32 0x40000000#32)) (Host.scatterAdd scatter_S50000x64_S800000x1_S800000x64_1_0_0_1 (broadcastInDim S50000x64 ![] bcast_S_S50000x64 (constant S_ .f32 0x00000000#32)) (broadcastInDim S800000x1 ![0] bcast_S800000_S800000x1_0 (res_main_v3 V0)) (mulf (broadcastInDim S800000x64 ![0, 1] bcast_S800000x1_S800000x64_0_1 (broadcastInDim S800000x1 ![0] bcast_S800000_S800000x1_0 (V0 (Proc.devRef .tc main_arg2)))) (Host.gather gather_S50000x64_S800000x1_S800000x64_1_0_n_n_0_1_164 (res_main_v119 V0) (broadcastInDim S800000x1 ![0] bcast_S800000_S800000x1_0 (select (cmpi .slt (res_main_v1 V0) (broadcastInDim S800000 ![] bcast_S_S800000 (constantI S_ 32 0#32))) (addi (res_main_v1 V0) (broadcastInDim S800000 ![] bcast_S_S800000 (constantI S_ 32 50000#32))) (res_main_v1 V0))))))) (res_main_v99 V0)) = t7 (V0 (Proc.devRef .tc Cert.ReferenceIdeal.main_arg0)) (V0 (Proc.devRef .tc Cert.ReferenceIdeal.main_arg1)) (V0 (Proc.devRef .tc Cert.ReferenceIdeal.main_arg2)) := by
  unfold t7; rw [ref_t6, ref_t5, ref_src, ref_dst]; rfl

end RefTerms

end Cert.Proof.Bridge

end
-- ==== Proof.lean ====
/-
  The certificate: a Chebyshev graph-convolution layer whose dense combine, out = Σ_k T_k · W[k] + bias over eight
  Chebyshev terms T_k of the node features, runs as a tiled kernel over 25 row tiles, against the plain reference that
  adds the eight host products in order.

  Both programs build the terms T_k by the same host operations (gather at the edge sources, scale by the edge weight,
  scatter-add at the edge destinations; T_{k+1} = 2 · step(T_k) − T_{k−1}).  At the ideal values a change of float format
  is the identity and a matrix-unit product into a zero accumulator is the host product, so row r, column e of either
  result is ((⟨T_0 r, W_0 e⟩ + ⟨T_1 r, W_1 e⟩) + … + ⟨T_7 r, W_7 e⟩) + bias e, the kernel starting its sum from a zero that
  `0 + x = x` removes; no other law of arithmetic is used, so nothing is asked of the inputs' finiteness.  The three frames
  are the programs' runs with the result dropped; the idealization rewrote nothing, so `preserves` is `True`.
-/
import proofs.«115591_j56229711839494_2_alg».proof.Defs
import proofs.«115591_j56229711839494_2_alg».proof.Proof.Gen.Kernel
import proofs.«115591_j56229711839494_2_alg».proof.Proof.Gen.KernelIdeal
import proofs.«115591_j56229711839494_2_alg».proof.Proof.Gen.ReferenceIdeal
import proofs.«115591_j56229711839494_2_alg».proof.Proof.Gen.Pre_finite_inputs
import proofs.«115591_j56229711839494_2_alg».proof.Proof.Gen.ReferenceIdeal.Run
import proofs.«115591_j56229711839494_2_alg».proof.Proof.KernelFrame
import proofs.«115591_j56229711839494_2_alg».proof.Proof.KernelIdealFrame
import proofs.«115591_j56229711839494_2_alg».proof.Proof.KernelIdealResult
import proofs.«115591_j56229711839494_2_alg».proof.Proof.RefValue
import proofs.«115591_j56229711839494_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments. -/
theorem frame_kernel : Cert.frame_Kernel := fun m ρ _ => Cert.Kernel.Combine.frame m ρ

/-- The idealized kernel runs and leaves its arguments. -/
theorem frame_kernelIdeal : Cert.frame_KernelIdeal := fun m ρ _ => Cert.KernelIdeal.Combine.frame m ρ

/-- The idealized reference runs and leaves its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From launch contents that agree on the arguments both idealized programs end with the same result array: the combine
    of the Chebyshev terms, the weights and the bias. -/
theorem algebraic : Cert.algebraic_KernelIdeal_ReferenceIdeal := by
  intro m ρ m' ρ' _ hagree
  refine ⟨fun c => Cert.KernelIdeal.CombineValue.result m c, ?_, ?_⟩
  · exact (θ_run Cert.KernelIdeal.defs _ _).mono
      (fun r h c => ⟨(h c).1.trans (Cert.KernelIdeal.CombineValue.final m c), (h c).2⟩)
      (Cert.KernelIdeal.Combine.run_result (F := Ideal) m ρ)
  · refine (θ_run Cert.ReferenceIdeal.defs _ _).mono (fun r h c => ⟨(h c).1.trans ?_, (h c).2⟩)
      (Cert.ReferenceIdeal.Value.run (F := Ideal) m' ρ')
    have h0 : StableHlo.launchContents m' c (Proc.devRef .tc Cert.ReferenceIdeal.main_arg0) = m ((c.tc : Thread Cert.KernelIdeal.nD Cert.KernelIdeal.τ).loc Cert.KernelIdeal.main_arg0) := (hagree c).1
    have h1 : StableHlo.launchContents m' c (Proc.devRef .tc Cert.ReferenceIdeal.main_arg1) = m ((c.tc : Thread Cert.KernelIdeal.nD Cert.KernelIdeal.τ).loc Cert.KernelIdeal.main_arg1) := (hagree c).2.1
    have h2 : StableHlo.launchContents m' c (Proc.devRef .tc Cert.ReferenceIdeal.main_arg2) = m ((c.tc : Thread Cert.KernelIdeal.nD Cert.KernelIdeal.τ).loc Cert.KernelIdeal.main_arg2) := (hagree c).2.2.1
    have h3 : StableHlo.launchContents m' c (Proc.devRef .tc Cert.ReferenceIdeal.main_arg3) = m ((c.tc : Thread Cert.KernelIdeal.nD Cert.KernelIdeal.τ).loc Cert.KernelIdeal.main_arg3) := (hagree c).2.2.2.1
    have h4 : StableHlo.launchContents m' c (Proc.devRef .tc Cert.ReferenceIdeal.main_arg4) = m ((c.tc : Thread Cert.KernelIdeal.nD Cert.KernelIdeal.τ).loc Cert.KernelIdeal.main_arg4) := (hagree c).2.2.2.2
    funext i
    obtain ⟨r, e, rfl⟩ : ∃ (r : Fin 50000) (e : Fin 64), i = ValueIdx.ix2 r e := ⟨i 0, i 1, ValueIdx.eq_ix2 i⟩
    beta_reduce
    rw [Cert.ReferenceIdeal.RefValue.result_apply, Cert.KernelIdeal.CombineValue.result_apply]
    rw [Bridge.ref_t7, Bridge.ref_t1, Bridge.ref_t2, Bridge.ref_t3, Bridge.ref_t4, Bridge.ref_t5, Bridge.ref_t6]
    rw [h0, h1, h2, h3, h4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
